-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Kernel.lean ====
abbrev S4096x4096 : Shape := ⟨2, ![4096, 4096]⟩
abbrev S2x1x4096 : Shape := ⟨3, ![2, 1, 4096]⟩
abbrev S1x4096 : Shape := ⟨2, ![1, 4096]⟩
abbrev S1024x2048 : Shape := ⟨2, ![1024, 2048]⟩
abbrev S1x1x1024 : Shape := ⟨3, ![1, 1, 1024]⟩
abbrev S1x2048 : Shape := ⟨2, ![1, 2048]⟩
abbrev S8x2048 : Shape := ⟨2, ![8, 2048]⟩
abbrev S8x1024 : Shape := ⟨2, ![8, 1024]⟩
abbrev S1x1024 : Shape := ⟨2, ![1, 1024]⟩
abbrev S2048 : Shape := ⟨1, ![2048]⟩
abbrev S1024x1024 : Shape := ⟨2, ![1024, 1024]⟩
abbrev S2x1x1024 : Shape := ⟨3, ![2, 1, 1024]⟩
abbrev S1024x1 : Shape := ⟨2, ![1024, 1]⟩

abbrev nBuf : Space → Nat
  | .hbm => 4
  | .vmem => 20
  | .smem => 0
  | _ => 0

abbrev bufTy : (tb : Table) → Fin (tcTables nBuf tb) → BufTy
  | .hbm, ⟨0, _⟩ => ⟨S4096x4096, .f32⟩
  | .hbm, ⟨1, _⟩ => ⟨S2x1x4096, .f32⟩
  | .hbm, ⟨2, _⟩ => ⟨S1x4096, .f32⟩
  | .hbm, ⟨3, _⟩ => ⟨S4096x4096, .f32⟩
  | .local _ .vmem, ⟨0, _⟩ => ⟨S1024x2048, .f32⟩
  | .local _ .vmem, ⟨1, _⟩ => ⟨S1024x2048, .f32⟩
  | .local _ .vmem, ⟨2, _⟩ => ⟨S1x1x1024, .f32⟩
  | .local _ .vmem, ⟨3, _⟩ => ⟨S1x1x1024, .f32⟩
  | .local _ .vmem, ⟨4, _⟩ => ⟨S1x2048, .f32⟩
  | .local _ .vmem, ⟨5, _⟩ => ⟨S1x2048, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S2x1x1024, .f32⟩
  | .local _ .vmem, ⟨11, _⟩ => ⟨S2x1x1024, .f32⟩
  | .local _ .vmem, ⟨12, _⟩ => ⟨S1x1024, .f32⟩
  | .local _ .vmem, ⟨13, _⟩ => ⟨S1x1024, .f32⟩
  | .local _ .vmem, ⟨14, _⟩ => ⟨S2x1x1024, .f32⟩
  | .local _ .vmem, ⟨15, _⟩ => ⟨S2x1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def k1_cond1 (i : grid1.Coords) : BitVec 1 :=
  let arg0 : BitVec 32 := BitVec.ofNat 32 (i 0).val
  let arg1 : BitVec 32 := BitVec.ofNat 32 (i 1).val
  let v41 : BitVec 1 := Scalar.cmpi .eq arg0 arg1
  let v42 : BitVec 32 := Scalar.extui v41
  let c0_i32 : BitVec 32 := 0#32
  let v43 : BitVec 1 := Scalar.cmpi .ne v42 c0_i32
  v43

def k1_cond2 (i : grid1.Coords) : BitVec 1 :=
  let arg0 : BitVec 32 := BitVec.ofNat 32 (i 0).val
  let arg1 : BitVec 32 := BitVec.ofNat 32 (i 1).val
  let v44 : BitVec 1 := Scalar.cmpi .ne arg0 arg1
  let v45 : BitVec 32 := Scalar.extui v44
  let c0_i32_26 : BitVec 32 := 0#32
  let v46 : BitVec 1 := Scalar.cmpi .ne v45 c0_i32_26
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S1024x2048_S1024x2048_0_0 : ∀ a, (![0, 0] : Fin 2 → Nat) a + S1024x2048.size a ≤ S1024x2048.size a
  h_S1024x2048 : 0 < S1024x2048.numel
  slices_S8x1024_o0_0_S1x1024 : S8x1024.Slices ![0, 0] S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S1024x2048_S2048 : S1024x2048.Reduces [0] S2048
  shapeCasts_S2048_S1x2048 : S2048.ShapeCasts S1x2048
  inb_S2x1x1024_S1x1x1024_0_0_0 : ∀ a, (![0, 0, 0] : Fin 3 → Nat) a + S1x1x1024.size a ≤ S2x1x1024.size a
  shapeCasts_S1x1x1024_S1x1024 : S1x1x1024.ShapeCasts S1x1024
  inb_S2x1x1024_S1x1x1024_1_0_0 : ∀ a, (![1, 0, 0] : Fin 3 → Nat) a + S1x1x1024.size a ≤ S2x1x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  iota_S1024x1024_d0_w32 : S1024x1024.Iotas .tc 32 [0]
  iota_S1024x1024_d1_w32 : S1024x1024.Iotas .tc 32 [1]
  broadcasts_S1024x1_S1024x1024 : S1024x1.Broadcasts S1024x1024
  broadcasts_S1x1024_S1024x1024 : S1x1024.Broadcasts S1024x1024
  dot_S8x2048_S1024x2048_S8x1024_1_1_0_0_n_n_wf : DotDims.WF S8x2048 S1024x2048 S8x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .f32 = 32 ∨ (Rect.block (s := S4096x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S2x1x4096.size a
  hwx0_1 : ∀ i : grid0.Coords, EltTy.bits .f32 = 32 ∨ (Rect.block (s := S2x1x4096) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x1x1024.size a ≤ S2x1x4096.size a
  hwx1_2 : ∀ i : grid1.Coords, EltTy.bits .f32 = 32 ∨ (Rect.block (s := S2x1x4096) S2x1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x1x1024.size a ≤ S2x1x4096.size a
  hwx1_4 : ∀ i : grid1.Coords, EltTy.bits .f32 = 32 ∨ (Rect.block (s := S2x1x4096) S2x1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x4096.size a
  hwx1_5 : ∀ i : grid1.Coords, EltTy.bits .f32 = 32 ∨ (Rect.block (s := S1x4096) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S4096x4096.size a
  hwx1_6 : ∀ i : grid1.Coords, EltTy.bits .f32 = 32 ∨ (Rect.block (s := S4096x4096) S1024x1024.size (cc1_transform_6 i) (hinb1_6 i)).WholeWords (EltTy.packing .f32)

variable [Facts₀]

def dot_S8x2048_S1024x2048_S8x1024_1_1_0_0_n_n : DotDims S8x2048 S1024x2048 S8x1024 where
  lhsContracting := [1]
  rhsContracting := [1]
  lhsNonContracting := [0]
  rhsNonContracting := [0]
  lhsBatch := []
  rhsBatch := []
  wf := dot_S8x2048_S1024x2048_S8x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S2x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S2x1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_1) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1024x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond1 i == 1#1) && !(k1_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096x1 : Shape := ⟨2, ![4096, 1]⟩
abbrev S256x1024 : Shape := ⟨2, ![256, 1024]⟩
abbrev S256x1 : Shape := ⟨2, ![256, 1]⟩
abbrev S256 : Shape := ⟨1, ![256]⟩
abbrev S1x4096 : Shape := ⟨2, ![1, 4096]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S256x1, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S4096x4096_S4096x4096_1_0 : S4096x4096.Transposes [1, 0] S4096x4096
  bcast_S_S4096x4096 : S_.BroadcastsInDim S4096x4096 (![] : Fin 0 → Fin S4096x4096.rank)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  shapeCasts_S4096x1_S1x4096 : S4096x1.ShapeCasts S1x4096
  iota_S256x1024_d0_w32 : S256x1024.Iotas .tc 32 [0]
  iota_S256x1024_d1_w32 : S256x1024.Iotas .tc 32 [1]
  broadcasts_S256x1_S256x1024 : S256x1.Broadcasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x4096.size a
  hwx0_0 : ∀ i : grid0.Coords, EltTy.bits .f32 = 32 ∨ (Rect.block (s := S4096x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x4096.size a
  hwx1_0 : ∀ i : grid1.Coords, EltTy.bits .f32 = 32 ∨ (Rect.block (s := S4096x4096) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S4096x1.size a
  hwx1_1 : ∀ i : grid1.Coords, EltTy.bits .f32 = 32 ∨ (Rect.block (s := S4096x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x4096.size a
  hwx1_3 : ∀ i : grid1.Coords, EltTy.bits .f32 = 32 ∨ (Rect.block (s := S4096x4096) S256x1024.size (cc1_transform_3 i) (hinb1_3 i)).WholeWords (EltTy.packing .f32)

variable [Facts₀]

abbrev win0_0 : Pipeline.Window sig grid0 :=
  Pipeline.Window.ofSpec (Memref.whole main_v3) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.K.Region0.lean ====
/- The first TensorCore region of the program (the row-half sums and the column sums), at the buffer
   contents `V` the region is entered with: each window's block at a point, the body run per control case,
   what the two outputs' staging buffers hold after each point, the pipeline's proof data and its body
   obligation. Window 0 is the input block, window 1 the row-sum block (written whole at every point),
   window 2 the column-sum block: cleared at the first point of a grid row, then accumulated from point to
   point of the row. -/
import proofs.«107320_g2000603544188606_pallasbulk_177_7_alg».proof.Proof.Gen.Kernel.Launch
import proofs.«107320_g2000603544188606_pallasbulk_177_7_alg».proof.Proof.Gen.Kernel.Skeleton
import proofs.«107320_g2000603544188606_pallasbulk_177_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's conditional, from the grid coordinates: the second coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The kernel body on any staging memrefs -/

/-- One staging buffer of each output window, through which its contents are stated. -/
abbrev VO0_1 : View sig .tc .vmem S1x1x1024 .f32 := (Memref.whole cc0_stg1_0 : Memref sig .tc .vmem S1x1x1024 .f32).view
abbrev VO0_2 : View sig .tc .vmem S1x2048 .f32 := (Memref.whole cc0_stg2_0 : Memref sig .tc .vmem S1x2048 .f32).view
/-- Each window's current staging memref at point `t`, spelled as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)

set_option maxHeartbeats 1000000 in
/-- What the body's stores leave in each output's staging memref, as pieces (last first), when the conditional is
    taken (the first point of a grid row), with the proof that on whole staging memrefs — the input's at its
    contents, the outputs' at anything — the body runs to the continuation holding the input's as it was and each
    output's buffer with its pieces written. -/
noncomputable def kernelRun0_A (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : cond0_0 i)
    (x0 : Vec F S1024x2048 .f32) :
    Σ' (L1 : List (View.Piece (Elt F) S1x1x1024 .f32)), { L2 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, ?_, fun E K => ?run⟩
  case run =>
    simp only [cc0__sums_kernel_eq_skeleton]; unfold cc0__sums_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

/-- The taken case's pieces for output 1 cover its block. -/
theorem cover0_A_1 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : cond0_0 i)
    (x0 : Vec F S1024x2048 .f32) (y : S1x1x1024.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S1x1x1024.size (by sl_kernel_rfl) y

/-- The taken case's pieces for output 2 cover its block. -/
theorem cover0_A_2 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : cond0_0 i)
    (x0 : Vec F S1024x2048 .f32) (y : S1x2048.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S1x2048.size (by sl_kernel_rfl) y

/-- What the taken case leaves in each output's staging buffer: its pieces read back over junk. -/
def out0_A_1 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : cond0_0 i)
    (x0 : Vec F S1024x2048 .f32) : Vec F S1x1x1024 .f32 :=
  VO0_1.read (Elt F) (VO0_1.writes (Elt F) VO0_1.junk (kernelRun0_A c i arg2 harg2 arg3 harg3 arg4 harg4 hc0 x0).1)
def out0_A_2 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : cond0_0 i)
    (x0 : Vec F S1024x2048 .f32) : Vec F S1x2048 .f32 :=
  VO0_2.read (Elt F) (VO0_2.writes (Elt F) VO0_2.junk (kernelRun0_A c i arg2 harg2 arg3 harg3 arg4 harg4 hc0 x0).2.1)

set_option maxHeartbeats 1000000 in
/-- The same when the conditional is not taken (the later points of a grid row): output 2's buffer, read before it is
    covered, is at its running contents `xo2`. -/
noncomputable def kernelRun0_B (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : ¬cond0_0 i)
    (x0 : Vec F S1024x2048 .f32) (xo2 : Vec F S1x2048 .f32) :
    Σ' (L1 : List (View.Piece (Elt F) S1x1x1024 .f32)), { L2 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xo2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, ?_, fun E K => ?run⟩
  case run =>
    simp only [cc0__sums_kernel_eq_skeleton]; unfold cc0__sums_kernel_skel
    unfold owns
    iintro ⟨⟨%f0, %hf0, H0⟩, ⟨%d1, %f1, -, H1⟩, ⟨%f2, %hf2, H2⟩, Hk⟩
    obtain rfl := harg2.eq_unread hf0; obtain rfl := harg4.eq_unread hf2
    sl_exec (disch := first | exact hc0)
    sl_step
    iapply Hk
    isplitl [H0]
    · iexists _; isplitr; · ipureintro; exact harg2.read_unread _
      iexact H0
    isplitl [H1]
    · iexists _; iexact H1
    iexists _; iexact H2

/-- The untaken case's pieces for output 1 cover its block. -/
theorem cover0_B_1 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : ¬cond0_0 i)
    (x0 : Vec F S1024x2048 .f32) (xo2 : Vec F S1x2048 .f32) (y : S1x1x1024.Idx) :
    ∃ pc ∈ (kernelRun0_B c i arg2 harg2 arg3 harg3 arg4 harg4 hc0 x0 xo2).1, y ∈ pc.1.set :=
  View.cover_of_tiledL (kernelRun0_B c i arg2 harg2 arg3 harg3 arg4 harg4 hc0 x0 xo2).1 S1x1x1024.size (by sl_kernel_rfl) y

/-- The untaken case's pieces for output 2 cover its block. -/
theorem cover0_B_2 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : ¬cond0_0 i)
    (x0 : Vec F S1024x2048 .f32) (xo2 : Vec F S1x2048 .f32) (y : S1x2048.Idx) :
    ∃ pc ∈ (kernelRun0_B c i arg2 harg2 arg3 harg3 arg4 harg4 hc0 x0 xo2).2.1, y ∈ pc.1.set :=
  View.cover_of_tiledL (kernelRun0_B c i arg2 harg2 arg3 harg3 arg4 harg4 hc0 x0 xo2).2.1 S1x2048.size (by sl_kernel_rfl) y

/-- What the untaken case leaves in each output's staging buffer: its pieces read back over junk. -/
def out0_B_1 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : ¬cond0_0 i)
    (x0 : Vec F S1024x2048 .f32) (xo2 : Vec F S1x2048 .f32) : Vec F S1x1x1024 .f32 :=
  VO0_1.read (Elt F) (VO0_1.writes (Elt F) VO0_1.junk (kernelRun0_B c i arg2 harg2 arg3 harg3 arg4 harg4 hc0 x0 xo2).1)
def out0_B_2 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : ¬cond0_0 i)
    (x0 : Vec F S1024x2048 .f32) (xo2 : Vec F S1x2048 .f32) : Vec F S1x2048 .f32 :=
  VO0_2.read (Elt F) (VO0_2.writes (Elt F) VO0_2.junk (kernelRun0_B c i arg2 harg2 arg3 harg3 arg4 harg4 hc0 x0 xo2).2.1)

/-! ## What the outputs hold after each point -/

/-- What the two outputs' staging buffers hold after the body at position `n`: the case the closed form selects at
    `n`, run at the point's memrefs and input block; when the conditional is not taken, output 2 — read before it is
    covered — at what this leaves at `n - 1` (its buffer is not written back between). -/
def outsAt0 (c : Dev nD) : (n : ℕ) → n < cfg0.N → Vec F S1x1x1024 .f32 × Vec F S1x2048 .f32
  | 0, hn =>
    (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩),
     out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 4 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩),
       out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).2,
       out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).2)

/-- `outsAt0` at a point where the conditional is taken. -/
theorem outsAt0_A (c : Dev nD) (t : Fin cfg0.N) (h0 : t.val % 4 = 0) :
    outsAt0 V c t.val t.isLt =
      (out0_A_1 c (grid0.coords t) (ms0_0 t) (hs0_0 t) (ms0_1 t) (hs0_1 t) (ms0_2 t) (hs0_2 t) ((hcond0_0 t).mpr h0) (iblk0 V c 0 t),
       out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

/-- `outsAt0` at a point where it is not: over what the point before left in output 2. -/
theorem outsAt0_B (c : Dev nD) (t : Fin cfg0.N) (h0 : ¬t.val % 4 = 0) :
    outsAt0 V c t.val t.isLt =
      (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).2,
       out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them (`V`); after the body at point
    `t` the input's buffer at its block and the outputs' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d
/-- At a point where the conditional is not taken output 2's current staging buffer holds what the body left at the
    point before: the point is not the first, the buffer was not written back between, the window is live and uncut. -/
theorem before0_2_B (c : Dev nD) (t : Fin cfg0.N) (h0 : ¬t.val % 4 = 0) (d) :
    (dat0 V c).before 2 t d = (outsAt0 V c (t.val - 1) (Nat.lt_of_le_of_lt (Nat.sub_le _ _) t.isLt)).2 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1200000 in
/-- The body at any point: the input's memref holds its block; the closed form says which case the point is in; where
    the conditional is not taken output 2's buffer holds what the point before left; so the run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 8 := lt_of_lt_of_eq t.isLt (show cfg0.N = 8 from N_0)
  by_cases h0 : t.val % 4 = 0
  · rw [outsAt0_A V c t h0]
    dsimp only
    unfold out0_A_1 out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    dsimp only
    simp only [before0_2_B V c t h0]
    unfold out0_B_1 out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _).2.2 Set.univ _)
    isplitl [H0]; · iexact H0
    isplitl [H1]; · iexists _; iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _)
    unfold owns; iexists _; isplitr
    swap; · iexact H2
    ipureintro; exact View.read_writes_of_cover _ _ _ _ _ (cover0_B_2 c _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- The second TensorCore region of the program (the scaling kernel on its 4×4 grid of 1024×1024 blocks),
   at the buffer contents `V` the region is entered with: each window's block at a point, the kernel
   body's run in its two control cases (a diagonal block adds the identity, an off-diagonal one does not),
   the proof data of the pipeline and the body obligation at every point. Generic in the float model. -/
import proofs.«107320_g2000603544188606_pallasbulk_177_7_alg».proof.Proof.Gen.Kernel.Launch
import proofs.«107320_g2000603544188606_pallasbulk_177_7_alg».proof.Proof.Gen.Kernel.Skeleton
import proofs.«107320_g2000603544188606_pallasbulk_177_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an
    unfetched window's block index has not moved), for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional is taken on the diagonal blocks. -/
abbrev cond1_0 (i : grid1.Coords) : Prop := k1_cond1 i = 1#1
theorem hcond1_0 : ∀ t : Fin cfg1.N, cond1_0 (grid1.coords t) ↔ t.val / 4 = t.val % 4 :=
  (by decide +kernel : ∀ t : Fin grid1.N, cond1_0 (grid1.coords t) ↔ t.val / 4 = t.val % 4)

/-- The second conditional is taken on the off-diagonal blocks. -/
abbrev cond1_1 (i : grid1.Coords) : Prop := k1_cond2 i = 1#1
theorem hcond1_1 : ∀ t : Fin cfg1.N, cond1_1 (grid1.coords t) ↔ ¬ t.val / 4 = t.val % 4 :=
  (by decide +kernel : ∀ t : Fin grid1.N, cond1_1 (grid1.coords t) ↔ ¬ t.val / 4 = t.val % 4)

/-- One of the two conditionals is taken at every point, so the output window is idle nowhere. -/
theorem idle1_6 : ∀ t : Fin cfg1.N, cfg1.idle 6 (cfg1.grid.coords t) = false :=
  (by decide +kernel : ∀ t : Fin grid1.N, idle1 6 (grid1.coords t) = false)

/-! ## The kernel body on any staging memrefs, per control case -/

/-- One staging buffer of the output window, through which its contents are stated. -/
abbrev VO1_6 : View sig .tc .vmem S1024x1024 .f32 := (Memref.whole cc1_stg6_0 : Memref sig .tc .vmem S1024x1024 .f32).view
/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .f32 := win1_6.stage (cfg1.slots t 6)
abbrev hs1_6 (t : Fin cfg1.N) : (ms1_6 t).IsWhole := hstage1_6 ((cfg1.slots t 6).cast nbuf1_6)

set_option maxHeartbeats 1000000 in
/-- On a diagonal block (first conditional taken, second not): the pieces the body's stores leave in the output's staging memref, with the proof that on whole staging memrefs, the inputs' at their contents and the output's at anything, the body runs to the continuation holding the inputs' as they were and the output's buffer with the pieces written. -/
noncomputable def kernelRun1_D (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) :
    { L6 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1__scale_kernel i arg2 harg2 arg3 harg3 arg4 harg4 arg5 harg5 arg6 harg6 arg7 harg7 arg8 harg8) K } := by
  refine ⟨?_, fun E K => ?run⟩
  case run =>
    simp only [cc1__scale_kernel_eq_skeleton]; unfold cc1__scale_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- The case's pieces for the output tile its block (one store of the whole block), so they cover it. -/
theorem cover1_D_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) (y : S1024x1024.Idx) :
    ∃ pc ∈ (kernelRun1_D c i arg2 harg2 arg3 harg3 arg4 harg4 arg5 harg5 arg6 harg6 arg7 harg7 arg8 harg8 hc0 hc1 x0 x1 x2 x3 x4 x5).1, y ∈ pc.1.set :=
  View.cover_of_tiledL (kernelRun1_D c i arg2 harg2 arg3 harg3 arg4 harg4 arg5 harg5 arg6 harg6 arg7 harg7 arg8 harg8 hc0 hc1 x0 x1 x2 x3 x4 x5).1 S1024x1024.size (by sl_kernel_rfl) y

/-- What the case leaves in the output's staging buffer: its pieces read back over junk. -/
def out1_D_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) : Vec F S1024x1024 .f32 :=
  VO1_6.read (Elt F) (VO1_6.writes (Elt F) VO1_6.junk (kernelRun1_D c i arg2 harg2 arg3 harg3 arg4 harg4 arg5 harg5 arg6 harg6 arg7 harg7 arg8 harg8 hc0 hc1 x0 x1 x2 x3 x4 x5).1)

set_option maxHeartbeats 1000000 in
/-- On an off-diagonal block (first conditional not taken, second taken): the same. -/
noncomputable def kernelRun1_O (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) :
    { L6 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1__scale_kernel i arg2 harg2 arg3 harg3 arg4 harg4 arg5 harg5 arg6 harg6 arg7 harg7 arg8 harg8) K } := by
  refine ⟨?_, fun E K => ?run⟩
  case run =>
    simp only [cc1__scale_kernel_eq_skeleton]; unfold cc1__scale_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- The case's pieces for the output tile its block (one store of the whole block), so they cover it. -/
theorem cover1_O_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) (y : S1024x1024.Idx) :
    ∃ pc ∈ (kernelRun1_O c i arg2 harg2 arg3 harg3 arg4 harg4 arg5 harg5 arg6 harg6 arg7 harg7 arg8 harg8 hc0 hc1 x0 x1 x2 x3 x4 x5).1, y ∈ pc.1.set :=
  View.cover_of_tiledL (kernelRun1_O c i arg2 harg2 arg3 harg3 arg4 harg4 arg5 harg5 arg6 harg6 arg7 harg7 arg8 harg8 hc0 hc1 x0 x1 x2 x3 x4 x5).1 S1024x1024.size (by sl_kernel_rfl) y

/-- What the case leaves in the output's staging buffer: its pieces read back over junk. -/
def out1_O_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) : Vec F S1024x1024 .f32 :=
  VO1_6.read (Elt F) (VO1_6.writes (Elt F) VO1_6.junk (kernelRun1_O c i arg2 harg2 arg3 harg3 arg4 harg4 arg5 harg5 arg6 harg6 arg7 harg7 arg8 harg8 hc0 hc1 x0 x1 x2 x3 x4 x5).1)

/-! ## What the output holds after each point -/

/-- The output's staging buffer after the body at point `t`: the case the closed forms select, run at the
    point's memrefs and input blocks. No output is read before it is covered, so nothing is carried. -/
def outAt1 (c : Dev nD) (t : Fin cfg1.N) : Vec F S1024x1024 .f32 :=
  if h : t.val / 4 = t.val % 4 then
    out1_D_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h) (fun h' => (hcond1_1 t).mp h' h) (iblk1 V c 0 t) (iblk1 V c 1 t) (iblk1 V c 2 t) (iblk1 V c 3 t) (iblk1 V c 4 t) (iblk1 V c 5 t)
  else
    out1_O_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h' => h ((hcond1_0 t).mp h')) ((hcond1_1 t).mpr h) (iblk1 V c 0 t) (iblk1 V c 1 t) (iblk1 V c 2 t) (iblk1 V c 3 t) (iblk1 V c 4 t) (iblk1 V c 5 t)

theorem outAt1_D (c : Dev nD) (t : Fin cfg1.N) (h : t.val / 4 = t.val % 4) :
    outAt1 V c t = out1_D_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h) (fun h' => (hcond1_1 t).mp h' h) (iblk1 V c 0 t) (iblk1 V c 1 t) (iblk1 V c 2 t) (iblk1 V c 3 t) (iblk1 V c 4 t) (iblk1 V c 5 t) :=
  dif_pos h

theorem outAt1_O (c : Dev nD) (t : Fin cfg1.N) (h : ¬ t.val / 4 = t.val % 4) :
    outAt1 V c t = out1_O_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h' => h ((hcond1_0 t).mp h')) ((hcond1_1 t).mpr h) (iblk1 V c 0 t) (iblk1 V c 1 t) (iblk1 V c 2 t) (iblk1 V c 3 t) (iblk1 V c 4 t) (iblk1 V c 5 t) :=
  dif_neg h

/-! ## The pipeline's proof data -/

/-- The proof data of the pipeline on core `c`: the arrays as the region finds them (`V`); after the body at
    point `t` each input's buffer at its block and the output's at `outAt1`; the class's invariant; nothing
    owed; of an array two input windows read, each holds half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ _ := Pipeline.ΦA spec1 c
  q := fun | ⟨0, _⟩ => fullShare.left | ⟨1, _⟩ => fullShare.right | ⟨2, _⟩ => fullShare.left | ⟨3, _⟩ => fullShare.left | ⟨4, _⟩ => fullShare.right | ⟨5, _⟩ => fullShare.right | _ => fullShare
  owed _ := 0

/-- The proof data's arrays are the region-entry contents. -/
theorem A_eq1 (c : Dev nD) (w : Fin cfg1.W) : (dat1 V c).A w = V c (Pipeline.arrRef spec1 w) := by
  dsimp only [dat1]

/-- The shares the proof data hold of the windows' arrays. -/
theorem q_eq1 (c : Dev nD) : (dat1 V c).q = fun | ⟨0, _⟩ => fullShare.left | ⟨1, _⟩ => fullShare.right | ⟨2, _⟩ => fullShare.left | ⟨3, _⟩ => fullShare.left | ⟨4, _⟩ => fullShare.right | ⟨5, _⟩ => fullShare.right | _ => fullShare := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1200000 in
/-- The body at any point: the inputs' memrefs hold their blocks; the closed forms say which case the point is
    in, so that case's run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h : t.val / 4 = t.val % 4
  · rw [outAt1_D V c t h]
    unfold out1_D_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_D c (grid1.coords t) _ _ _ _ _ _ _ _ _ _ _ _ _ _ ((hcond1_0 t).mpr h) (fun h' => (hcond1_1 t).mp h' h) (iblk1 V c 0 t) (iblk1 V c 1 t) (iblk1 V c 2 t) (iblk1 V c 3 t) (iblk1 V c 4 t) (iblk1 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_D_6 c _ _ _ _ _ _ _ _ _ _ _ _ _ _ _ _ _ _ _ _ _ _ _)
  · rw [outAt1_O V c t h]
    unfold out1_O_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_O c (grid1.coords t) _ _ _ _ _ _ _ _ _ _ _ _ _ _ (fun h' => h ((hcond1_0 t).mp h')) ((hcond1_1 t).mpr h) (iblk1 V c 0 t) (iblk1 V c 1 t) (iblk1 V c 2 t) (iblk1 V c 3 t) (iblk1 V c 4 t) (iblk1 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_O_6 c _ _ _ _ _ _ _ _ _ _ _ _ _ _ _ _ _ _ _ _ _ _ _)

/-- The library's body obligation, at every point: the output window is idle nowhere. -/
theorem body_obligation1 (c : Dev nD) : BodyObligation (dat1 (F := F) V c) (defs₀ (F := F)) Variants.none () Set.univ := fun t => by
  rw [bigSep_W1, bigSep_W1]
  rw [idle1_6 t]
  exact sound_body1 V c t

end Regions

end Cert.Kernel.Hand

end
-- ==== Proof.K.Run.lean ====
/-
  The kernel's run, both pallas_calls in order, with every unscoped buffer named at the end.

  The program is two pipelined calls and no host operation. The first call reads the matrix block by block and writes
  the half-row sums and the column sums; the second reads the matrix through two windows (block (i,j) and block (j,i)),
  the half-row sums through two and the column sums through two, and writes the normalised matrix. Because several
  windows of the second call sit on one buffer, that buffer is split among them by shares at the call's entry and
  joined again at its exit (section "Splitting the buffers …"); everything else is the library's launch of a list of
  segments: the buffer contents at each boundary are a fold from the launch memory (`W0`, `W1`, `W2`), each call is a
  segment entered from the contents before it and left at the contents after it, and the last contents are read against
  the final state. The frame claim (the argument ends as launched) and the value claim (the result buffer ends at
  `W2`'s contents) are both read off `run_all`.
-/
import proofs.«107320_g2000603544188606_pallasbulk_177_7_alg».proof.Proof.Gen.Kernel.Launch
import proofs.«107320_g2000603544188606_pallasbulk_177_7_alg».proof.Proof.Gen.Kernel.Points
import proofs.«107320_g2000603544188606_pallasbulk_177_7_alg».proof.Proof.K.Region0
import proofs.«107320_g2000603544188606_pallasbulk_177_7_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Splitting the buffers behind the second call's windows among the windows

The second call reads the matrix through two windows (block (i,j) and block (j,i)), the half-row sums through two and the
column sums through two. Each of those three buffers, held whole, is split into two half shares, one per window; the
output's buffer goes to its one window whole. At the exit the two halves of each buffer, which hold equal contents, are
joined again. -/

section Shares

variable (c : Dev nD) (dat : Dat τ (Elt F) Unit ℕ (UR sig nD τ) ℕ cfg1 c)

/-- The share each input window of the second call holds its array at. -/
def Q1 : Fin cfg1.W → PosShare TreeShare :=
  fun | ⟨0, _⟩ => fullShare.left | ⟨1, _⟩ => fullShare.right | ⟨2, _⟩ => fullShare.left | ⟨3, _⟩ => fullShare.left
      | ⟨4, _⟩ => fullShare.right | ⟨5, _⟩ => fullShare.right | _ => fullShare

/-- The buffers behind the second call's arrays, listed. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v0_0) ↦{fullShare} V main_v0_0)
          ∗ (((c : Thread nD τ).loc main_v0_1) ↦{fullShare} V main_v0_1) ∗ (((c : Thread nD τ).loc main_v1) ↦{fullShare} V main_v1)) := by
  unfold Pipeline.arrBufs
  exact bigSep_eq_bigSepL_of_eq [main_arg0, main_v0_0, main_v0_1, main_v1] (by decide) (by decide) _

/-- The second call's arrays, window by window, each at its share. -/
theorem arrays1_eq (hq : dat.q = Q1) (G : (w : Fin cfg1.W) → Buf (Elt F) ((cfg1.win w).arr.view.loc (c.tc : Thread nD τ))) :
    (dat.arrays G : sProp 𝕄)
      = iprop((((c : Thread nD τ).loc main_arg0) ↦{fullShare.left} G 0) ∗ (((c : Thread nD τ).loc main_arg0) ↦{fullShare.right} G 1)
          ∗ (((c : Thread nD τ).loc main_v0_0) ↦{fullShare.left} G 2) ∗ (((c : Thread nD τ).loc main_v0_1) ↦{fullShare.left} G 3)
          ∗ (((c : Thread nD τ).loc main_v0_0) ↦{fullShare.right} G 4) ∗ (((c : Thread nD τ).loc main_v0_1) ↦{fullShare.right} G 5)
          ∗ (((c : Thread nD τ).loc main_v1) ↦{fullShare} G 6)) := by
  have h : (dat.arrays G : sProp 𝕄) = bigSep Finset.univ fun w : Fin cfg1.W =>
      (((c : Thread nD τ).loc (Pipeline.arrRef spec1 w)) ↦{dat.share w} G w : sProp 𝕄) := by
    unfold Dat.arrays
    exact bigSep_congr fun w _ => by rw [(arr_whole1 w).set_eq_univ]
  rw [h, bigSep_W1]
  unfold Dat.share
  rw [hq]
  rfl

/-- ENTRY: the buffers behind the arrays, whole at `V`, make the arrays at any contents read off `V`. -/
theorem split1 (V : (b : Ref sig .tc) → Buf (Elt F) ((c : Thread nD τ).loc b)) (hq : dat.q = Q1)
    (G : (w : Fin cfg1.W) → Buf (Elt F) ((cfg1.win w).arr.view.loc (c.tc : Thread nD τ))) (hG : ∀ w, G w = V (Pipeline.arrRef spec1 w)) :
    (Pipeline.arrBufs (Ix := Unit) (Name := ℕ) (U := UR sig nD τ) (Lvl := ℕ) spec1 c V : sProp 𝕄) ⊢ dat.arrays G := by
  rw [arrBufs1_eq, arrays1_eq c dat hq G, hG 0, hG 1, hG 2, hG 3, hG 4, hG 5, hG 6]
  iintro ⟨Ha, Hr, Hc, Ho⟩
  ihave Ha' := (pointsTo_share (PosShare.mem_left_op_right fullShare)).1 $$ Ha
  icases Ha' with ⟨Ha1, Ha2⟩
  ihave Hr' := (pointsTo_share (PosShare.mem_left_op_right fullShare)).1 $$ Hr
  icases Hr' with ⟨Hr1, Hr2⟩
  ihave Hc' := (pointsTo_share (PosShare.mem_left_op_right fullShare)).1 $$ Hc
  icases Hc' with ⟨Hc1, Hc2⟩
  isplitl [Ha1]; · iexact Ha1
  isplitl [Ha2]; · iexact Ha2
  isplitl [Hr1]; · iexact Hr1
  isplitl [Hc1]; · iexact Hc1
  isplitl [Hr2]; · iexact Hr2
  isplitl [Hc2]; · iexact Hc2
  iexact Ho

/-- EXIT: the arrays, the inputs at the entry contents `V` and the output at `Z`, make the buffers behind them whole
    again: the three read buffers at `V`, the output's at `Z`. -/
theorem join1 (V : (b : Ref sig .tc) → Buf (Elt F) ((c : Thread nD τ).loc b)) (hq : dat.q = Q1)
    (G : (w : Fin cfg1.W) → Buf (Elt F) ((cfg1.win w).arr.view.loc (c.tc : Thread nD τ)))
    (hG : ∀ w, w ≠ 6 → G w = V (Pipeline.arrRef spec1 w)) :
    (dat.arrays G : sProp 𝕄) ⊢ iprop((((c : Thread nD τ).loc main_arg0) ↦{fullShare} V main_arg0) ∗ (((c : Thread nD τ).loc main_v0_0) ↦{fullShare} V main_v0_0)
          ∗ (((c : Thread nD τ).loc main_v0_1) ↦{fullShare} V main_v0_1) ∗ (((c : Thread nD τ).loc main_v1) ↦{fullShare} G 6)) := by
  rw [arrays1_eq c dat hq G, hG 0 (by decide), hG 1 (by decide), hG 2 (by decide), hG 3 (by decide), hG 4 (by decide), hG 5 (by decide)]
  iintro ⟨Ha1, Ha2, Hr1, Hc1, Hr2, Hc2, Ho⟩
  isplitl [Ha1 Ha2]
  · iapply (pointsTo_share (PosShare.mem_left_op_right fullShare)).2
    isplitl [Ha1]; · iexact Ha1
    iexact Ha2
  isplitl [Hr1 Hr2]
  · iapply (pointsTo_share (PosShare.mem_left_op_right fullShare)).2
    isplitl [Hr1]; · iexact Hr1
    iexact Hr2
  isplitl [Hc1 Hc2]
  · iapply (pointsTo_share (PosShare.mem_left_op_right fullShare)).2
    isplitl [Hc1]; · iexact Hc1
    iexact Hc2
  iexact Ho

end Shares

/-- The second call's proof data hold their input arrays at the shares `Q1`. -/
theorem q1_eq (V : (c : Dev nD) → (b : Ref sig .tc) → Buf (Elt F) ((c : Thread nD τ).loc b)) (c : Dev nD) : (dat1 V c).q = Q1 := by
  funext w
  match w with
  | ⟨0, _⟩ => rfl | ⟨1, _⟩ => rfl | ⟨2, _⟩ => rfl | ⟨3, _⟩ => rfl | ⟨4, _⟩ => rfl | ⟨5, _⟩ => rfl | ⟨6, _⟩ => rfl
  | ⟨n + 7, h⟩ => exact absurd h (by show ¬ n + 7 < 7; omega)

variable (m : (ℓ : Loc nD τ sig) → Buf (Elt F) ℓ) (ρ : Dev nD → PrngReg)

/-! ## The buffer contents at each boundary: a fold through @main (two calls, no host operation) -/

/-- Core `c`'s buffers at launch (the first call's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first call's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second call's exit: the output's buffer at what the pipeline leaves, every other buffer as entered (the
    call's other arrays are inputs). -/
def W2 (c : Dev nD) : Valuation τ sig (Elt F) :=
  Function.update (W1 m ρ c) (Proc.devRef .tc main_v1) ((dat1 (V1 m ρ) c).arrAt 6 cfg1.N)
theorem W2_out (c : Dev nD) : W2 m ρ c (Proc.devRef .tc main_v1) = (dat1 (V1 m ρ) c).arrAt 6 cfg1.N := by
  unfold W2; exact Function.update_self _ _ _
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b

/-- The argument ends as launched: neither call writes it. -/
theorem W2_main_arg0 (c : Dev nD) : W2 m ρ c (Proc.devRef .tc main_arg0) = m ((c : Thread nD τ).loc main_arg0) :=
  (W2_of_ne m ρ c main_arg0 (by decide)).trans <| (W1_arr m ρ c 0).trans <|
    ((dat0 (V0 m ρ) c).arrAt_in 0 rfl _).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-- A core's unscoped buffers are the buffers behind the second call's arrays and the rest. -/
theorem unscopedBufs_split1 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs (Ix := Unit) (Name := ℕ) (U := UR sig nD τ) (Lvl := ℕ) spec1 c V : sProp 𝕄)
          ∗ Pipeline.unscopedRest (Ix := Unit) (Name := ℕ) (U := UR sig nD τ) (Lvl := ℕ) spec1 c V) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- The second call never writes an array it reads. -/
theorem arrAt1_in (c : Dev nD) (w : Fin cfg1.W) (hw : w ≠ 6) :
    (dat1 (V1 m ρ) c).arrAt w cfg1.N = V1 m ρ c (Pipeline.arrRef spec1 w) := by
  have h : (cfg1.win w).isOut = false := by revert w; decide
  exact ((dat1 (V1 m ρ) c).arrAt_in w h _).trans rfl

/-- EXIT of the second call: its arrays as the pipeline leaves them, beside the rest, are the unscoped buffers at the
    exit contents. -/
theorem exit1 (c : Dev nD) :
    iprop((dat1 (V1 m ρ) c).arrays ((dat1 (V1 m ρ) c).arrAt · cfg1.N)
        ∗ Pipeline.unscopedRest (Ix := Unit) (Name := ℕ) (U := UR sig nD τ) (Lvl := ℕ) spec1 c (V1 m ρ c))
      ⊢ (unscopedBufs (Ix := Unit) (Name := ℕ) (U := UR sig nD τ) (Lvl := ℕ) c (V2 m ρ c) : sProp 𝕄) := by
  rw [unscopedBufs_split1, arrBufs1_eq, unscopedRest1_eq, unscopedRest1_eq,
    show V2 m ρ c main_arg0 = V1 m ρ c main_arg0 from W2_of_ne m ρ c main_arg0 (by decide),
    show V2 m ρ c main_v0_0 = V1 m ρ c main_v0_0 from W2_of_ne m ρ c main_v0_0 (by decide),
    show V2 m ρ c main_v0_1 = V1 m ρ c main_v0_1 from W2_of_ne m ρ c main_v0_1 (by decide),
    show V2 m ρ c main_v1 = (dat1 (V1 m ρ) c).arrAt 6 cfg1.N from W2_out m ρ c]
  exact sep_mono (join1 c _ (V1 m ρ c) (q1_eq _ c) _ (arrAt1_in m ρ c)) .rfl

/-! ## The calls as segments -/

set_option backward.isDefEq.respectTransparency.types false in
/-- The first call over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W1`, left at `W2`. The buffers behind
    its shared arrays are split among its windows at the entry (`split1`) and joined at the exit (`exit1`). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V1 m ρ c)) := by
      rw [unscopedBufs_split1]
      exact sep_mono (split1 c (dat1 (V1 m ρ) c) (V1 m ρ c) (q1_eq _ c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN: from any memory with zero counters every weakly fair execution of @main terminates, nothing faulting, and
    every final state holds each unscoped buffer at the last boundary's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The frame: the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W2_main_arg0 m ρ c)) (run_all m ρ)

end Cert.Kernel.Hand

end
-- ==== Proof.KI.Region0.lean ====
/- The first TensorCore region of the program (the row-half sums and the column sums), at the buffer
   contents `V` the region is entered with: each window's block at a point, the body run per control case,
   what the two outputs' staging buffers hold after each point, the pipeline's proof data and its body
   obligation. Window 0 is the input block, window 1 the row-sum block (written whole at every point),
   window 2 the column-sum block: cleared at the first point of a grid row, then accumulated from point to
   point of the row. -/
import proofs.«107320_g2000603544188606_pallasbulk_177_7_alg».proof.Proof.Gen.KernelIdeal.Launch
import proofs.«107320_g2000603544188606_pallasbulk_177_7_alg».proof.Proof.Gen.KernelIdeal.Skeleton
import proofs.«107320_g2000603544188606_pallasbulk_177_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's conditional, from the grid coordinates: the second coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The kernel body on any staging memrefs -/

/-- One staging buffer of each output window, through which its contents are stated. -/
abbrev VO0_1 : View sig .tc .vmem S1x1x1024 .f32 := (Memref.whole cc0_stg1_0 : Memref sig .tc .vmem S1x1x1024 .f32).view
abbrev VO0_2 : View sig .tc .vmem S1x2048 .f32 := (Memref.whole cc0_stg2_0 : Memref sig .tc .vmem S1x2048 .f32).view
/-- Each window's current staging memref at point `t`, spelled as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)

set_option maxHeartbeats 1000000 in
/-- What the body's stores leave in each output's staging memref, as pieces (last first), when the conditional is
    taken (the first point of a grid row), with the proof that on whole staging memrefs — the input's at its
    contents, the outputs' at anything — the body runs to the continuation holding the input's as it was and each
    output's buffer with its pieces written. -/
noncomputable def kernelRun0_A (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : cond0_0 i)
    (x0 : Vec F S1024x2048 .f32) :
    Σ' (L1 : List (View.Piece (Elt F) S1x1x1024 .f32)), { L2 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, ?_, fun E K => ?run⟩
  case run =>
    simp only [cc0__sums_kernel_eq_skeleton]; unfold cc0__sums_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

/-- The taken case's pieces for output 1 cover its block. -/
theorem cover0_A_1 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : cond0_0 i)
    (x0 : Vec F S1024x2048 .f32) (y : S1x1x1024.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S1x1x1024.size (by sl_kernel_rfl) y

/-- The taken case's pieces for output 2 cover its block. -/
theorem cover0_A_2 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : cond0_0 i)
    (x0 : Vec F S1024x2048 .f32) (y : S1x2048.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S1x2048.size (by sl_kernel_rfl) y

/-- What the taken case leaves in each output's staging buffer: its pieces read back over junk. -/
def out0_A_1 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : cond0_0 i)
    (x0 : Vec F S1024x2048 .f32) : Vec F S1x1x1024 .f32 :=
  VO0_1.read (Elt F) (VO0_1.writes (Elt F) VO0_1.junk (kernelRun0_A c i arg2 harg2 arg3 harg3 arg4 harg4 hc0 x0).1)
def out0_A_2 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : cond0_0 i)
    (x0 : Vec F S1024x2048 .f32) : Vec F S1x2048 .f32 :=
  VO0_2.read (Elt F) (VO0_2.writes (Elt F) VO0_2.junk (kernelRun0_A c i arg2 harg2 arg3 harg3 arg4 harg4 hc0 x0).2.1)

set_option maxHeartbeats 1000000 in
/-- The same when the conditional is not taken (the later points of a grid row): output 2's buffer, read before it is
    covered, is at its running contents `xo2`. -/
noncomputable def kernelRun0_B (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : ¬cond0_0 i)
    (x0 : Vec F S1024x2048 .f32) (xo2 : Vec F S1x2048 .f32) :
    Σ' (L1 : List (View.Piece (Elt F) S1x1x1024 .f32)), { L2 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xo2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, ?_, fun E K => ?run⟩
  case run =>
    simp only [cc0__sums_kernel_eq_skeleton]; unfold cc0__sums_kernel_skel
    unfold owns
    iintro ⟨⟨%f0, %hf0, H0⟩, ⟨%d1, %f1, -, H1⟩, ⟨%f2, %hf2, H2⟩, Hk⟩
    obtain rfl := harg2.eq_unread hf0; obtain rfl := harg4.eq_unread hf2
    sl_exec (disch := first | exact hc0)
    sl_step
    iapply Hk
    isplitl [H0]
    · iexists _; isplitr; · ipureintro; exact harg2.read_unread _
      iexact H0
    isplitl [H1]
    · iexists _; iexact H1
    iexists _; iexact H2

/-- The untaken case's pieces for output 1 cover its block. -/
theorem cover0_B_1 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : ¬cond0_0 i)
    (x0 : Vec F S1024x2048 .f32) (xo2 : Vec F S1x2048 .f32) (y : S1x1x1024.Idx) :
    ∃ pc ∈ (kernelRun0_B c i arg2 harg2 arg3 harg3 arg4 harg4 hc0 x0 xo2).1, y ∈ pc.1.set :=
  View.cover_of_tiledL (kernelRun0_B c i arg2 harg2 arg3 harg3 arg4 harg4 hc0 x0 xo2).1 S1x1x1024.size (by sl_kernel_rfl) y

/-- The untaken case's pieces for output 2 cover its block. -/
theorem cover0_B_2 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : ¬cond0_0 i)
    (x0 : Vec F S1024x2048 .f32) (xo2 : Vec F S1x2048 .f32) (y : S1x2048.Idx) :
    ∃ pc ∈ (kernelRun0_B c i arg2 harg2 arg3 harg3 arg4 harg4 hc0 x0 xo2).2.1, y ∈ pc.1.set :=
  View.cover_of_tiledL (kernelRun0_B c i arg2 harg2 arg3 harg3 arg4 harg4 hc0 x0 xo2).2.1 S1x2048.size (by sl_kernel_rfl) y

/-- What the untaken case leaves in each output's staging buffer: its pieces read back over junk. -/
def out0_B_1 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : ¬cond0_0 i)
    (x0 : Vec F S1024x2048 .f32) (xo2 : Vec F S1x2048 .f32) : Vec F S1x1x1024 .f32 :=
  VO0_1.read (Elt F) (VO0_1.writes (Elt F) VO0_1.junk (kernelRun0_B c i arg2 harg2 arg3 harg3 arg4 harg4 hc0 x0 xo2).1)
def out0_B_2 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc0 : ¬cond0_0 i)
    (x0 : Vec F S1024x2048 .f32) (xo2 : Vec F S1x2048 .f32) : Vec F S1x2048 .f32 :=
  VO0_2.read (Elt F) (VO0_2.writes (Elt F) VO0_2.junk (kernelRun0_B c i arg2 harg2 arg3 harg3 arg4 harg4 hc0 x0 xo2).2.1)

/-! ## What the outputs hold after each point -/

/-- What the two outputs' staging buffers hold after the body at position `n`: the case the closed form selects at
    `n`, run at the point's memrefs and input block; when the conditional is not taken, output 2 — read before it is
    covered — at what this leaves at `n - 1` (its buffer is not written back between). -/
def outsAt0 (c : Dev nD) : (n : ℕ) → n < cfg0.N → Vec F S1x1x1024 .f32 × Vec F S1x2048 .f32
  | 0, hn =>
    (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩),
     out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 4 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩),
       out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).2,
       out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).2)

/-- `outsAt0` at a point where the conditional is taken. -/
theorem outsAt0_A (c : Dev nD) (t : Fin cfg0.N) (h0 : t.val % 4 = 0) :
    outsAt0 V c t.val t.isLt =
      (out0_A_1 c (grid0.coords t) (ms0_0 t) (hs0_0 t) (ms0_1 t) (hs0_1 t) (ms0_2 t) (hs0_2 t) ((hcond0_0 t).mpr h0) (iblk0 V c 0 t),
       out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

/-- `outsAt0` at a point where it is not: over what the point before left in output 2. -/
theorem outsAt0_B (c : Dev nD) (t : Fin cfg0.N) (h0 : ¬t.val % 4 = 0) :
    outsAt0 V c t.val t.isLt =
      (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).2,
       out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them (`V`); after the body at point
    `t` the input's buffer at its block and the outputs' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d
/-- At a point where the conditional is not taken output 2's current staging buffer holds what the body left at the
    point before: the point is not the first, the buffer was not written back between, the window is live and uncut. -/
theorem before0_2_B (c : Dev nD) (t : Fin cfg0.N) (h0 : ¬t.val % 4 = 0) (d) :
    (dat0 V c).before 2 t d = (outsAt0 V c (t.val - 1) (Nat.lt_of_le_of_lt (Nat.sub_le _ _) t.isLt)).2 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1200000 in
/-- The body at any point: the input's memref holds its block; the closed form says which case the point is in; where
    the conditional is not taken output 2's buffer holds what the point before left; so the run applies; the
    invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 8 := lt_of_lt_of_eq t.isLt (show cfg0.N = 8 from N_0)
  by_cases h0 : t.val % 4 = 0
  · rw [outsAt0_A V c t h0]
    dsimp only
    unfold out0_A_1 out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    dsimp only
    simp only [before0_2_B V c t h0]
    unfold out0_B_1 out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _).2.2 Set.univ _)
    isplitl [H0]; · iexact H0
    isplitl [H1]; · iexists _; iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _)
    unfold owns; iexists _; isplitr
    swap; · iexact H2
    ipureintro; exact View.read_writes_of_cover _ _ _ _ _ (cover0_B_2 c _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- The second TensorCore region of the program (the scaling kernel on its 4×4 grid of 1024×1024 blocks),
   at the buffer contents `V` the region is entered with: each window's block at a point, the kernel
   body's run in its two control cases (a diagonal block adds the identity, an off-diagonal one does not),
   the proof data of the pipeline and the body obligation at every point. Generic in the float model. -/
import proofs.«107320_g2000603544188606_pallasbulk_177_7_alg».proof.Proof.Gen.KernelIdeal.Launch
import proofs.«107320_g2000603544188606_pallasbulk_177_7_alg».proof.Proof.Gen.KernelIdeal.Skeleton
import proofs.«107320_g2000603544188606_pallasbulk_177_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an
    unfetched window's block index has not moved), for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional is taken on the diagonal blocks. -/
abbrev cond1_0 (i : grid1.Coords) : Prop := k1_cond1 i = 1#1
theorem hcond1_0 : ∀ t : Fin cfg1.N, cond1_0 (grid1.coords t) ↔ t.val / 4 = t.val % 4 :=
  (by decide +kernel : ∀ t : Fin grid1.N, cond1_0 (grid1.coords t) ↔ t.val / 4 = t.val % 4)

/-- The second conditional is taken on the off-diagonal blocks. -/
abbrev cond1_1 (i : grid1.Coords) : Prop := k1_cond2 i = 1#1
theorem hcond1_1 : ∀ t : Fin cfg1.N, cond1_1 (grid1.coords t) ↔ ¬ t.val / 4 = t.val % 4 :=
  (by decide +kernel : ∀ t : Fin grid1.N, cond1_1 (grid1.coords t) ↔ ¬ t.val / 4 = t.val % 4)

/-- One of the two conditionals is taken at every point, so the output window is idle nowhere. -/
theorem idle1_6 : ∀ t : Fin cfg1.N, cfg1.idle 6 (cfg1.grid.coords t) = false :=
  (by decide +kernel : ∀ t : Fin grid1.N, idle1 6 (grid1.coords t) = false)

/-! ## The kernel body on any staging memrefs, per control case -/

/-- One staging buffer of the output window, through which its contents are stated. -/
abbrev VO1_6 : View sig .tc .vmem S1024x1024 .f32 := (Memref.whole cc1_stg6_0 : Memref sig .tc .vmem S1024x1024 .f32).view
/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .f32 := win1_6.stage (cfg1.slots t 6)
abbrev hs1_6 (t : Fin cfg1.N) : (ms1_6 t).IsWhole := hstage1_6 ((cfg1.slots t 6).cast nbuf1_6)

set_option maxHeartbeats 1000000 in
/-- On a diagonal block (first conditional taken, second not): the pieces the body's stores leave in the output's staging memref, with the proof that on whole staging memrefs, the inputs' at their contents and the output's at anything, the body runs to the continuation holding the inputs' as they were and the output's buffer with the pieces written. -/
noncomputable def kernelRun1_D (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) :
    { L6 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1__scale_kernel i arg2 harg2 arg3 harg3 arg4 harg4 arg5 harg5 arg6 harg6 arg7 harg7 arg8 harg8) K } := by
  refine ⟨?_, fun E K => ?run⟩
  case run =>
    simp only [cc1__scale_kernel_eq_skeleton]; unfold cc1__scale_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- The case's pieces for the output tile its block (one store of the whole block), so they cover it. -/
theorem cover1_D_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) (y : S1024x1024.Idx) :
    ∃ pc ∈ (kernelRun1_D c i arg2 harg2 arg3 harg3 arg4 harg4 arg5 harg5 arg6 harg6 arg7 harg7 arg8 harg8 hc0 hc1 x0 x1 x2 x3 x4 x5).1, y ∈ pc.1.set :=
  View.cover_of_tiledL (kernelRun1_D c i arg2 harg2 arg3 harg3 arg4 harg4 arg5 harg5 arg6 harg6 arg7 harg7 arg8 harg8 hc0 hc1 x0 x1 x2 x3 x4 x5).1 S1024x1024.size (by sl_kernel_rfl) y

/-- What the case leaves in the output's staging buffer: its pieces read back over junk. -/
def out1_D_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) : Vec F S1024x1024 .f32 :=
  VO1_6.read (Elt F) (VO1_6.writes (Elt F) VO1_6.junk (kernelRun1_D c i arg2 harg2 arg3 harg3 arg4 harg4 arg5 harg5 arg6 harg6 arg7 harg7 arg8 harg8 hc0 hc1 x0 x1 x2 x3 x4 x5).1)

set_option maxHeartbeats 1000000 in
/-- On an off-diagonal block (first conditional not taken, second taken): the same. -/
noncomputable def kernelRun1_O (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) :
    { L6 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1__scale_kernel i arg2 harg2 arg3 harg3 arg4 harg4 arg5 harg5 arg6 harg6 arg7 harg7 arg8 harg8) K } := by
  refine ⟨?_, fun E K => ?run⟩
  case run =>
    simp only [cc1__scale_kernel_eq_skeleton]; unfold cc1__scale_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- The case's pieces for the output tile its block (one store of the whole block), so they cover it. -/
theorem cover1_O_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) (y : S1024x1024.Idx) :
    ∃ pc ∈ (kernelRun1_O c i arg2 harg2 arg3 harg3 arg4 harg4 arg5 harg5 arg6 harg6 arg7 harg7 arg8 harg8 hc0 hc1 x0 x1 x2 x3 x4 x5).1, y ∈ pc.1.set :=
  View.cover_of_tiledL (kernelRun1_O c i arg2 harg2 arg3 harg3 arg4 harg4 arg5 harg5 arg6 harg6 arg7 harg7 arg8 harg8 hc0 hc1 x0 x1 x2 x3 x4 x5).1 S1024x1024.size (by sl_kernel_rfl) y

/-- What the case leaves in the output's staging buffer: its pieces read back over junk. -/
def out1_O_6 (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) : Vec F S1024x1024 .f32 :=
  VO1_6.read (Elt F) (VO1_6.writes (Elt F) VO1_6.junk (kernelRun1_O c i arg2 harg2 arg3 harg3 arg4 harg4 arg5 harg5 arg6 harg6 arg7 harg7 arg8 harg8 hc0 hc1 x0 x1 x2 x3 x4 x5).1)

/-! ## What the output holds after each point -/

/-- The output's staging buffer after the body at point `t`: the case the closed forms select, run at the
    point's memrefs and input blocks. No output is read before it is covered, so nothing is carried. -/
def outAt1 (c : Dev nD) (t : Fin cfg1.N) : Vec F S1024x1024 .f32 :=
  if h : t.val / 4 = t.val % 4 then
    out1_D_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h) (fun h' => (hcond1_1 t).mp h' h) (iblk1 V c 0 t) (iblk1 V c 1 t) (iblk1 V c 2 t) (iblk1 V c 3 t) (iblk1 V c 4 t) (iblk1 V c 5 t)
  else
    out1_O_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h' => h ((hcond1_0 t).mp h')) ((hcond1_1 t).mpr h) (iblk1 V c 0 t) (iblk1 V c 1 t) (iblk1 V c 2 t) (iblk1 V c 3 t) (iblk1 V c 4 t) (iblk1 V c 5 t)

theorem outAt1_D (c : Dev nD) (t : Fin cfg1.N) (h : t.val / 4 = t.val % 4) :
    outAt1 V c t = out1_D_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h) (fun h' => (hcond1_1 t).mp h' h) (iblk1 V c 0 t) (iblk1 V c 1 t) (iblk1 V c 2 t) (iblk1 V c 3 t) (iblk1 V c 4 t) (iblk1 V c 5 t) :=
  dif_pos h

theorem outAt1_O (c : Dev nD) (t : Fin cfg1.N) (h : ¬ t.val / 4 = t.val % 4) :
    outAt1 V c t = out1_O_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h' => h ((hcond1_0 t).mp h')) ((hcond1_1 t).mpr h) (iblk1 V c 0 t) (iblk1 V c 1 t) (iblk1 V c 2 t) (iblk1 V c 3 t) (iblk1 V c 4 t) (iblk1 V c 5 t) :=
  dif_neg h

/-! ## The pipeline's proof data -/

/-- The proof data of the pipeline on core `c`: the arrays as the region finds them (`V`); after the body at
    point `t` each input's buffer at its block and the output's at `outAt1`; the class's invariant; nothing
    owed; of an array two input windows read, each holds half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ _ := Pipeline.ΦA spec1 c
  q := fun | ⟨0, _⟩ => fullShare.left | ⟨1, _⟩ => fullShare.right | ⟨2, _⟩ => fullShare.left | ⟨3, _⟩ => fullShare.left | ⟨4, _⟩ => fullShare.right | ⟨5, _⟩ => fullShare.right | _ => fullShare
  owed _ := 0

/-- The proof data's arrays are the region-entry contents. -/
theorem A_eq1 (c : Dev nD) (w : Fin cfg1.W) : (dat1 V c).A w = V c (Pipeline.arrRef spec1 w) := by
  dsimp only [dat1]

/-- The shares the proof data hold of the windows' arrays. -/
theorem q_eq1 (c : Dev nD) : (dat1 V c).q = fun | ⟨0, _⟩ => fullShare.left | ⟨1, _⟩ => fullShare.right | ⟨2, _⟩ => fullShare.left | ⟨3, _⟩ => fullShare.left | ⟨4, _⟩ => fullShare.right | ⟨5, _⟩ => fullShare.right | _ => fullShare := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1200000 in
/-- The body at any point: the inputs' memrefs hold their blocks; the closed forms say which case the point is
    in, so that case's run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h : t.val / 4 = t.val % 4
  · rw [outAt1_D V c t h]
    unfold out1_D_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_D c (grid1.coords t) _ _ _ _ _ _ _ _ _ _ _ _ _ _ ((hcond1_0 t).mpr h) (fun h' => (hcond1_1 t).mp h' h) (iblk1 V c 0 t) (iblk1 V c 1 t) (iblk1 V c 2 t) (iblk1 V c 3 t) (iblk1 V c 4 t) (iblk1 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_D_6 c _ _ _ _ _ _ _ _ _ _ _ _ _ _ _ _ _ _ _ _ _ _ _)
  · rw [outAt1_O V c t h]
    unfold out1_O_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_O c (grid1.coords t) _ _ _ _ _ _ _ _ _ _ _ _ _ _ (fun h' => h ((hcond1_0 t).mp h')) ((hcond1_1 t).mpr h) (iblk1 V c 0 t) (iblk1 V c 1 t) (iblk1 V c 2 t) (iblk1 V c 3 t) (iblk1 V c 4 t) (iblk1 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover1_O_6 c _ _ _ _ _ _ _ _ _ _ _ _ _ _ _ _ _ _ _ _ _ _ _)

/-- The library's body obligation, at every point: the output window is idle nowhere. -/
theorem body_obligation1 (c : Dev nD) : BodyObligation (dat1 (F := F) V c) (defs₀ (F := F)) Variants.none () Set.univ := fun t => by
  rw [bigSep_W1, bigSep_W1]
  rw [idle1_6 t]
  exact sound_body1 V c t

end Regions

end Cert.KernelIdeal.Hand

end
-- ==== Proof.KI.Run.lean ====
/-
  The kernel's run, both pallas_calls in order, with every unscoped buffer named at the end.

  The program is two pipelined calls and no host operation. The first call reads the matrix block by block and writes
  the half-row sums and the column sums; the second reads the matrix through two windows (block (i,j) and block (j,i)),
  the half-row sums through two and the column sums through two, and writes the normalised matrix. Because several
  windows of the second call sit on one buffer, that buffer is split among them by shares at the call's entry and
  joined again at its exit (section "Splitting the buffers …"); everything else is the library's launch of a list of
  segments: the buffer contents at each boundary are a fold from the launch memory (`W0`, `W1`, `W2`), each call is a
  segment entered from the contents before it and left at the contents after it, and the last contents are read against
  the final state. The frame claim (the argument ends as launched) and the value claim (the result buffer ends at
  `W2`'s contents) are both read off `run_all`.
-/
import proofs.«107320_g2000603544188606_pallasbulk_177_7_alg».proof.Proof.Gen.KernelIdeal.Launch
import proofs.«107320_g2000603544188606_pallasbulk_177_7_alg».proof.Proof.Gen.KernelIdeal.Points
import proofs.«107320_g2000603544188606_pallasbulk_177_7_alg».proof.Proof.KI.Region0
import proofs.«107320_g2000603544188606_pallasbulk_177_7_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Splitting the buffers behind the second call's windows among the windows

The second call reads the matrix through two windows (block (i,j) and block (j,i)), the half-row sums through two and the
column sums through two. Each of those three buffers, held whole, is split into two half shares, one per window; the
output's buffer goes to its one window whole. At the exit the two halves of each buffer, which hold equal contents, are
joined again. -/

section Shares

variable (c : Dev nD) (dat : Dat τ (Elt F) Unit ℕ (UR sig nD τ) ℕ cfg1 c)

/-- The share each input window of the second call holds its array at. -/
def Q1 : Fin cfg1.W → PosShare TreeShare :=
  fun | ⟨0, _⟩ => fullShare.left | ⟨1, _⟩ => fullShare.right | ⟨2, _⟩ => fullShare.left | ⟨3, _⟩ => fullShare.left
      | ⟨4, _⟩ => fullShare.right | ⟨5, _⟩ => fullShare.right | _ => fullShare

/-- The buffers behind the second call's arrays, listed. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v0_0) ↦{fullShare} V main_v0_0)
          ∗ (((c : Thread nD τ).loc main_v0_1) ↦{fullShare} V main_v0_1) ∗ (((c : Thread nD τ).loc main_v1) ↦{fullShare} V main_v1)) := by
  unfold Pipeline.arrBufs
  exact bigSep_eq_bigSepL_of_eq [main_arg0, main_v0_0, main_v0_1, main_v1] (by decide) (by decide) _

/-- The second call's arrays, window by window, each at its share. -/
theorem arrays1_eq (hq : dat.q = Q1) (G : (w : Fin cfg1.W) → Buf (Elt F) ((cfg1.win w).arr.view.loc (c.tc : Thread nD τ))) :
    (dat.arrays G : sProp 𝕄)
      = iprop((((c : Thread nD τ).loc main_arg0) ↦{fullShare.left} G 0) ∗ (((c : Thread nD τ).loc main_arg0) ↦{fullShare.right} G 1)
          ∗ (((c : Thread nD τ).loc main_v0_0) ↦{fullShare.left} G 2) ∗ (((c : Thread nD τ).loc main_v0_1) ↦{fullShare.left} G 3)
          ∗ (((c : Thread nD τ).loc main_v0_0) ↦{fullShare.right} G 4) ∗ (((c : Thread nD τ).loc main_v0_1) ↦{fullShare.right} G 5)
          ∗ (((c : Thread nD τ).loc main_v1) ↦{fullShare} G 6)) := by
  have h : (dat.arrays G : sProp 𝕄) = bigSep Finset.univ fun w : Fin cfg1.W =>
      (((c : Thread nD τ).loc (Pipeline.arrRef spec1 w)) ↦{dat.share w} G w : sProp 𝕄) := by
    unfold Dat.arrays
    exact bigSep_congr fun w _ => by rw [(arr_whole1 w).set_eq_univ]
  rw [h, bigSep_W1]
  unfold Dat.share
  rw [hq]
  rfl

/-- ENTRY: the buffers behind the arrays, whole at `V`, make the arrays at any contents read off `V`. -/
theorem split1 (V : (b : Ref sig .tc) → Buf (Elt F) ((c : Thread nD τ).loc b)) (hq : dat.q = Q1)
    (G : (w : Fin cfg1.W) → Buf (Elt F) ((cfg1.win w).arr.view.loc (c.tc : Thread nD τ))) (hG : ∀ w, G w = V (Pipeline.arrRef spec1 w)) :
    (Pipeline.arrBufs (Ix := Unit) (Name := ℕ) (U := UR sig nD τ) (Lvl := ℕ) spec1 c V : sProp 𝕄) ⊢ dat.arrays G := by
  rw [arrBufs1_eq, arrays1_eq c dat hq G, hG 0, hG 1, hG 2, hG 3, hG 4, hG 5, hG 6]
  iintro ⟨Ha, Hr, Hc, Ho⟩
  ihave Ha' := (pointsTo_share (PosShare.mem_left_op_right fullShare)).1 $$ Ha
  icases Ha' with ⟨Ha1, Ha2⟩
  ihave Hr' := (pointsTo_share (PosShare.mem_left_op_right fullShare)).1 $$ Hr
  icases Hr' with ⟨Hr1, Hr2⟩
  ihave Hc' := (pointsTo_share (PosShare.mem_left_op_right fullShare)).1 $$ Hc
  icases Hc' with ⟨Hc1, Hc2⟩
  isplitl [Ha1]; · iexact Ha1
  isplitl [Ha2]; · iexact Ha2
  isplitl [Hr1]; · iexact Hr1
  isplitl [Hc1]; · iexact Hc1
  isplitl [Hr2]; · iexact Hr2
  isplitl [Hc2]; · iexact Hc2
  iexact Ho

/-- EXIT: the arrays, the inputs at the entry contents `V` and the output at `Z`, make the buffers behind them whole
    again: the three read buffers at `V`, the output's at `Z`. -/
theorem join1 (V : (b : Ref sig .tc) → Buf (Elt F) ((c : Thread nD τ).loc b)) (hq : dat.q = Q1)
    (G : (w : Fin cfg1.W) → Buf (Elt F) ((cfg1.win w).arr.view.loc (c.tc : Thread nD τ)))
    (hG : ∀ w, w ≠ 6 → G w = V (Pipeline.arrRef spec1 w)) :
    (dat.arrays G : sProp 𝕄) ⊢ iprop((((c : Thread nD τ).loc main_arg0) ↦{fullShare} V main_arg0) ∗ (((c : Thread nD τ).loc main_v0_0) ↦{fullShare} V main_v0_0)
          ∗ (((c : Thread nD τ).loc main_v0_1) ↦{fullShare} V main_v0_1) ∗ (((c : Thread nD τ).loc main_v1) ↦{fullShare} G 6)) := by
  rw [arrays1_eq c dat hq G, hG 0 (by decide), hG 1 (by decide), hG 2 (by decide), hG 3 (by decide), hG 4 (by decide), hG 5 (by decide)]
  iintro ⟨Ha1, Ha2, Hr1, Hc1, Hr2, Hc2, Ho⟩
  isplitl [Ha1 Ha2]
  · iapply (pointsTo_share (PosShare.mem_left_op_right fullShare)).2
    isplitl [Ha1]; · iexact Ha1
    iexact Ha2
  isplitl [Hr1 Hr2]
  · iapply (pointsTo_share (PosShare.mem_left_op_right fullShare)).2
    isplitl [Hr1]; · iexact Hr1
    iexact Hr2
  isplitl [Hc1 Hc2]
  · iapply (pointsTo_share (PosShare.mem_left_op_right fullShare)).2
    isplitl [Hc1]; · iexact Hc1
    iexact Hc2
  iexact Ho

end Shares

/-- The second call's proof data hold their input arrays at the shares `Q1`. -/
theorem q1_eq (V : (c : Dev nD) → (b : Ref sig .tc) → Buf (Elt F) ((c : Thread nD τ).loc b)) (c : Dev nD) : (dat1 V c).q = Q1 := by
  funext w
  match w with
  | ⟨0, _⟩ => rfl | ⟨1, _⟩ => rfl | ⟨2, _⟩ => rfl | ⟨3, _⟩ => rfl | ⟨4, _⟩ => rfl | ⟨5, _⟩ => rfl | ⟨6, _⟩ => rfl
  | ⟨n + 7, h⟩ => exact absurd h (by show ¬ n + 7 < 7; omega)

variable (m : (ℓ : Loc nD τ sig) → Buf (Elt F) ℓ) (ρ : Dev nD → PrngReg)

/-! ## The buffer contents at each boundary: a fold through @main (two calls, no host operation) -/

/-- Core `c`'s buffers at launch (the first call's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first call's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second call's exit: the output's buffer at what the pipeline leaves, every other buffer as entered (the
    call's other arrays are inputs). -/
def W2 (c : Dev nD) : Valuation τ sig (Elt F) :=
  Function.update (W1 m ρ c) (Proc.devRef .tc main_v1) ((dat1 (V1 m ρ) c).arrAt 6 cfg1.N)
theorem W2_out (c : Dev nD) : W2 m ρ c (Proc.devRef .tc main_v1) = (dat1 (V1 m ρ) c).arrAt 6 cfg1.N := by
  unfold W2; exact Function.update_self _ _ _
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b

/-- The argument ends as launched: neither call writes it. -/
theorem W2_main_arg0 (c : Dev nD) : W2 m ρ c (Proc.devRef .tc main_arg0) = m ((c : Thread nD τ).loc main_arg0) :=
  (W2_of_ne m ρ c main_arg0 (by decide)).trans <| (W1_arr m ρ c 0).trans <|
    ((dat0 (V0 m ρ) c).arrAt_in 0 rfl _).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-- A core's unscoped buffers are the buffers behind the second call's arrays and the rest. -/
theorem unscopedBufs_split1 (c : Dev nD) (V : (b : Ref sig .tc) → Buf (Elt F) ((c : Thread nD τ).loc b)) :
    (unscopedBufs (Ix := Unit) (Name := ℕ) (U := UR sig nD τ) (Lvl := ℕ) c V : sProp 𝕄)
      = iprop((Pipeline.arrBufs (Ix := Unit) (Name := ℕ) (U := UR sig nD τ) (Lvl := ℕ) spec1 c V : sProp 𝕄)
          ∗ Pipeline.unscopedRest (Ix := Unit) (Name := ℕ) (U := UR sig nD τ) (Lvl := ℕ) spec1 c V) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- The second call never writes an array it reads. -/
theorem arrAt1_in (c : Dev nD) (w : Fin cfg1.W) (hw : w ≠ 6) :
    (dat1 (V1 m ρ) c).arrAt w cfg1.N = V1 m ρ c (Pipeline.arrRef spec1 w) := by
  have h : (cfg1.win w).isOut = false := by revert w; decide
  exact ((dat1 (V1 m ρ) c).arrAt_in w h _).trans rfl

/-- EXIT of the second call: its arrays as the pipeline leaves them, beside the rest, are the unscoped buffers at the
    exit contents. -/
theorem exit1 (c : Dev nD) :
    iprop((dat1 (V1 m ρ) c).arrays ((dat1 (V1 m ρ) c).arrAt · cfg1.N)
        ∗ Pipeline.unscopedRest (Ix := Unit) (Name := ℕ) (U := UR sig nD τ) (Lvl := ℕ) spec1 c (V1 m ρ c))
      ⊢ (unscopedBufs (Ix := Unit) (Name := ℕ) (U := UR sig nD τ) (Lvl := ℕ) c (V2 m ρ c) : sProp 𝕄) := by
  rw [unscopedBufs_split1, arrBufs1_eq, unscopedRest1_eq, unscopedRest1_eq,
    show V2 m ρ c main_arg0 = V1 m ρ c main_arg0 from W2_of_ne m ρ c main_arg0 (by decide),
    show V2 m ρ c main_v0_0 = V1 m ρ c main_v0_0 from W2_of_ne m ρ c main_v0_0 (by decide),
    show V2 m ρ c main_v0_1 = V1 m ρ c main_v0_1 from W2_of_ne m ρ c main_v0_1 (by decide),
    show V2 m ρ c main_v1 = (dat1 (V1 m ρ) c).arrAt 6 cfg1.N from W2_out m ρ c]
  exact sep_mono (join1 c _ (V1 m ρ c) (q1_eq _ c) _ (arrAt1_in m ρ c)) .rfl

/-! ## The calls as segments -/

set_option backward.isDefEq.respectTransparency.types false in
/-- The first call over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at `W1`, left at `W2`. The buffers behind
    its shared arrays are split among its windows at the entry (`split1`) and joined at the exit (`exit1`). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V1 m ρ c)) := by
      rw [unscopedBufs_split1]
      exact sep_mono (split1 c (dat1 (V1 m ρ) c) (V1 m ρ c) (q1_eq _ c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN: from any memory with zero counters every weakly fair execution of @main terminates, nothing faulting, and
    every final state holds each unscoped buffer at the last boundary's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The frame: the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W2_main_arg0 m ρ c)) (run_all m ρ)

end Cert.KernelIdeal.Hand

end
-- ==== Proof.KI.Region0Pieces.lean ====
/- What each control case of the first region's body leaves in the two output staging buffers, as the body's
   arithmetic of the input block (and, for the column sums, of the value the buffer held): the stores found by
   the run each cover their buffer, so the buffer reads back as the last store's payload. -/
import proofs.«107320_g2000603544188606_pallasbulk_177_7_alg».proof.Proof.KI.Region0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Row sums, conditional taken: the row-sum payload of the input block. -/
theorem out_A_1 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc : cond0_0 i)
    (x0 : Vec F S1024x2048 .f32) :
    out0_A_1 c i arg2 harg2 arg3 harg3 arg4 harg4 hc x0 = k0_pay1 x0 := by
  unfold out0_A_1
  rw [View.read_writes_eq_canon _ _ _ (cover0_A_1 c i arg2 harg2 arg3 harg3 arg4 harg4 hc x0)]
  unfold kernelRun0_A
  dsimp only
  rw [View.canon_unit_zero hz3]
  simp only [View.readAt_eq_ld, harg2.read_unread, View.ld_unit_zero (S := S1024x2048) hz2]

/-- Row sums, conditional not taken: the same. -/
theorem out_B_1 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc : ¬cond0_0 i)
    (x0 : Vec F S1024x2048 .f32) (xo2 : Vec F S1x2048 .f32) :
    out0_B_1 c i arg2 harg2 arg3 harg3 arg4 harg4 hc x0 xo2 = k0_pay1 x0 := by
  unfold out0_B_1
  rw [View.read_writes_eq_canon _ _ _ (cover0_B_1 c i arg2 harg2 arg3 harg3 arg4 harg4 hc x0 xo2)]
  unfold kernelRun0_B
  dsimp only
  rw [View.canon_unit_zero hz3]
  simp only [View.readAt_eq_ld, harg2.read_unread, View.ld_unit_zero (S := S1024x2048) hz2]

/-- Column sums, conditional taken: the buffer is cleared, read back, and the block's column sums added. -/
theorem out_A_2 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc : cond0_0 i)
    (x0 : Vec F S1024x2048 .f32) :
    out0_A_2 c i arg2 harg2 arg3 harg3 arg4 harg4 hc x0 = k0_pay3 x0 (k0_pay2 (F := F)) := by
  unfold out0_A_2
  rw [View.read_writes_eq_canon _ _ _ (cover0_A_2 c i arg2 harg2 arg3 harg3 arg4 harg4 hc x0)]
  unfold kernelRun0_A
  dsimp only
  sl_unfold_words
  rw [View.canon_cons_unit_zero (S := S1x2048) hz2, View.readCov_unit_zero (S := S1x2048) _ hz2]
  simp only [View.readAt_eq_ld, harg2.read_unread, View.ld_unit_zero (S := S1024x2048) hz2]

/-- Column sums, conditional not taken: the block's column sums added to what the buffer held. -/
theorem out_B_2 (c : Dev nD) (i : grid0.Coords) (arg2 : Memref sig .tc .vmem S1024x2048 .f32) (harg2 : arg2.IsWhole) (arg3 : Memref sig .tc .vmem S1x1x1024 .f32) (harg3 : arg3.IsWhole) (arg4 : Memref sig .tc .vmem S1x2048 .f32) (harg4 : arg4.IsWhole) (hc : ¬cond0_0 i)
    (x0 : Vec F S1024x2048 .f32) (xo2 : Vec F S1x2048 .f32) :
    out0_B_2 c i arg2 harg2 arg3 harg3 arg4 harg4 hc x0 xo2 = k0_pay3 x0 xo2 := by
  unfold out0_B_2
  rw [View.read_writes_eq_canon _ _ _ (cover0_B_2 c i arg2 harg2 arg3 harg3 arg4 harg4 hc x0 xo2)]
  unfold kernelRun0_B
  dsimp only
  rw [View.canon_unit_zero hz2]
  simp only [View.readAt_eq_ld, harg2.read_unread, harg4.read_unread, View.ld_unit_zero (S := S1024x2048) hz2, View.ld_unit_zero (S := S1x2048) hz2]

end Cert.KernelIdeal.Hand

end
-- ==== Proof.KI.Region0Pay.lean ====
/- The arithmetic of the first region's body at an index, on the extended reals: the row-sum payload is the sum of
   a row of the input block (a product with an all-ones block into a zero accumulator, row 0 taken), the
   column-sum payload adds the sum of a column of the input block to the value it is handed, and the clearing
   payload is zero. -/
import proofs.«107320_g2000603544188606_pallasbulk_177_7_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

/-- The literal word of one is the extended real one. -/
theorem one_word : (FloatOps.ofBits (F := Ideal) .f32 0x3F800000#32 : EReal) = 1 := by
  simp [FloatOps.ofBits, Ideal.ofBits, Ideal.ieee, -EReal.coe_mul]; norm_num

/-- The row-sum payload at column `q`: the sum of row `q` of the input block. -/
theorem pay1_apply (x0 : Vec Ideal S1024x2048 .f32) (u v : Fin 1) (q : Fin 1024) :
    k0_pay1 (F := Ideal) x0 (ix3 u v q) = ∑ k : Fin 2048, x0 (ix2 q k) := by
  unfold k0_pay1
  refine (shapeCast_ab_1ab_apply _ _ u v q).trans ?_
  refine (extractStridedSlice_apply _ _ _ (ix2 v q) (ix2 (0 : Fin 8) q) ?_).trans ?_
  · intro a
    match a with
    | ⟨0, _⟩ => show (0 : ℕ) = 0 + v.val; omega
    | ⟨1, _⟩ => show q.val = 0 + q.val; omega
  refine (Ideal.matmul_constant_zero_apply _ _ _ _ _).trans ?_
  rw [← Equiv.sum_comp (contrEquiv1 dot_S8x2048_S1024x2048_S8x1024_1_1_0_0_n_n 2048 rfl rfl).symm]
  refine Finset.sum_congr rfl fun k _ => ?_
  have c2 := contrEquiv1_symm_val dot_S8x2048_S1024x2048_S8x1024_1_1_0_0_n_n 2048 rfl rfl k
  have r2 : dot_S8x2048_S1024x2048_S8x1024_1_1_0_0_n_n.rhsIdx (ix2 (0 : Fin 8) q)
      ((contrEquiv1 dot_S8x2048_S1024x2048_S8x1024_1_1_0_0_n_n 2048 rfl rfl).symm k) = ix2 q k := by
    funext ax; apply Fin.ext
    match ax with
    | ⟨0, _⟩ => simp [DotDims.rhsIdx, dot_S8x2048_S1024x2048_S8x1024_1_1_0_0_n_n]; rfl
    | ⟨1, _⟩ => simp [DotDims.rhsIdx, dot_S8x2048_S1024x2048_S8x1024_1_1_0_0_n_n]; exact c2
  rw [r2]
  show (FloatOps.ofBits (F := Ideal) .f32 0x3F800000#32 : EReal) * x0 (ix2 q k) = x0 (ix2 q k)
  rw [one_word, one_mul]

/-- The clearing payload is zero everywhere. -/
theorem pay2_apply (j : S1x2048.Idx) : k0_pay2 (F := Ideal) j = 0 := by
  show (FloatOps.ofBits (F := Ideal) .f32 0x00000000#32 : EReal) = 0
  exact Ideal.ofBits_zero_f32

/-- The sum of a column of the input block, as the reduction over the rows reads it. -/
theorem colred_apply (x0 : FVec Ideal S1024x2048 .f32) (hφ : FKind.Formats .f32)
    (hacc : (0x00000000#32 : BitVec 32) = 0x00000000#32) (q : Fin 2048) :
    multiReduction .add [0] S2048 x0 0x00000000#32 reduces_S1024x2048_S2048 hφ hacc (ix1 q) = ∑ r : Fin 1024, x0 (ix2 r q) := by
  refine (Ideal.multiReduction_add_single x0 0x00000000#32 reduces_S1024x2048_S2048 hφ hacc (ix1 q)).trans ?_
  show ∑ r : Fin 1024, x0 (reduces_S1024x2048_S2048.lift (ix1 q) r) = _
  refine Finset.sum_congr rfl fun r _ => congrArg x0 ?_
  funext ax; apply Fin.ext
  match ax with
  | ⟨0, _⟩ => rfl
  | ⟨1, _⟩ => rfl

/-- The column-sum payload at column `q`: the value handed in plus the sum of column `q` of the input block. -/
theorem pay3_apply (x0 : Vec Ideal S1024x2048 .f32) (v9 : Vec Ideal S1x2048 .f32) (u : Fin 1) (q : Fin 2048) :
    k0_pay3 (F := Ideal) x0 v9 (ix2 u q) = v9 (ix2 u q) + ∑ r : Fin 1024, x0 (ix2 r q) := by
  unfold k0_pay3
  show (shapeCast S1x2048 v9 shapeCasts_S1x2048_S1x2048) (ix2 u q) + (shapeCast S1x2048 _ shapeCasts_S2048_S1x2048) (ix2 u q) = _
  rw [shapeCast_self]
  refine congrArg (v9 (ix2 u q) + ·) ?_
  refine (shapeCast_a_1a_apply _ _ u q).trans ?_
  exact colred_apply x0 _ _ q

end Cert.KernelIdeal.Hand

end
-- ==== Proof.Spec.lean ====
/-
  The function both programs compute, on the extended reals.

  For a square matrix `A` of extended reals, let `d i = ½ · (Σ_k A[i,k] + Σ_k A[k,i]) + 1` (the degree of row `i`
  of the symmetrised matrix `½ (A + Aᵀ)` plus the identity), `g i = d i ^ (-1/2)` where `d i > 0` and `0`
  elsewhere, and
      `G A [i,j] = (g i · (½ · (A[i,j] + A[j,i]) + [i = j])) · g j`.
  The three literals are the words the programs print: `0x3F000000` (one half), `0x3F800000` (one), `0` (zero).
  The law that joins the two programs: one half, being nonnegative and finite, passes through a finite sum of
  extended reals, so the row sum of `½ (A + Aᵀ)` is half the sum of a row sum and a column sum of `A`
  (`rowSum_sym`); no entry is asked to be finite.
-/
import Idealize.ShloMosaic.PureOps.Ideal
import Idealize.ShloMosaic.Lib.ValueIdx

noncomputable section

namespace Cert.Spec

open Idealize.ShloMosaic Idealize.ShloMosaic.ValueIdx

/-- The matrix shape. -/
abbrev SA : Shape := ⟨2, ![4096, 4096]⟩
abbrev Mat : Type := FVec Ideal SA .f32

/-- The three literals, as the programs spell them. -/
abbrev half : EReal := FloatOps.ofBits (F := Ideal) .f32 0x3F000000#32
abbrev one : EReal := FloatOps.ofBits (F := Ideal) .f32 0x3F800000#32
abbrev zero : EReal := FloatOps.ofBits (F := Ideal) .f32 0x00000000#32

/-- Sum of row `i`, sum of column `j`. -/
def rowSum (A : Mat) (i : Fin 4096) : EReal := ∑ k : Fin 4096, A (ix2 i k)
def colSum (A : Mat) (j : Fin 4096) : EReal := ∑ r : Fin 4096, A (ix2 r j)

/-- Sum of one half (columns `2048 h … 2048 h + 2047`) of row `i`. -/
def rowHalf (A : Mat) (h : Fin 2) (i : Fin 4096) : EReal :=
  ∑ k : Fin 2048, A (ix2 i ⟨2048 * h.val + k.val, by have := h.isLt; have := k.isLt; omega⟩)

/-- An entry of the symmetrised matrix `½ (A + Aᵀ)`. -/
def sym (A : Mat) (i j : Fin 4096) : EReal := half * (A (ix2 i j) + A (ix2 j i))

/-- The degree: half the sum of the row sum and the column sum, plus one. -/
def deg (A : Mat) (i : Fin 4096) : EReal := half * (rowSum A i + colSum A i) + one

/-- The guarded inverse square root: `s ^ (-1/2)` where `s > 0`, zero elsewhere. -/
def guard (s : EReal) : EReal :=
  Scalar.select (FloatOps.cmpf (F := Ideal) (φ := .f32) .ogt s zero) (Ideal.rsqrt s) zero

/-- The diagonal of the identity. -/
def eye (i j : Fin 4096) : EReal := if i = j then one else zero

/-- The normalised matrix at row `i`, column `j`. -/
def entry (A : Mat) (i j : Fin 4096) : EReal :=
  (guard (deg A i) * (sym A i j + eye i j)) * guard (deg A j)

/-- The normalised matrix. -/
def G (A : Mat) : Mat := fun x => entry A (x 0) (x 1)

theorem G_ix2 (A : Mat) (i j : Fin 4096) : G A (ix2 i j) = entry A i j := rfl

theorem half_eq : half = ((1 / 2 : ℝ) : EReal) := by
  simp [half, Ideal.ofBits, Ideal.ieee, -EReal.coe_mul]; norm_num

theorem half_nonneg : (0 : EReal) ≤ half := by
  rw [half_eq]; exact_mod_cast (by norm_num : (0 : ℝ) ≤ 1 / 2)

theorem half_ne_top : half ≠ ⊤ := by
  rw [half_eq]; exact EReal.coe_ne_top _

theorem zero_eq : zero = 0 := by
  simp [zero, Ideal.ofBits, Ideal.ieee]

/-- One half passes through a finite sum of extended reals. -/
theorem half_mul_sum {ι : Type} (s : Finset ι) (f : ι → EReal) : half * ∑ k ∈ s, f k = ∑ k ∈ s, half * f k := by
  classical
  induction s using Finset.induction_on with
  | empty => simp
  | insert a s ha ih =>
    rw [Finset.sum_insert ha, Finset.sum_insert ha, EReal.left_distrib_of_nonneg_of_ne_top half_nonneg half_ne_top, ih]

/-- The row sum of the symmetrised matrix is half the sum of a row sum and a column sum. -/
theorem rowSum_sym (A : Mat) (i : Fin 4096) : ∑ k : Fin 4096, sym A i k = half * (rowSum A i + colSum A i) := by
  unfold sym rowSum colSum
  rw [← half_mul_sum, Finset.sum_add_distrib]

/-- The two half-row sums add up to the row sum. -/
theorem rowHalf_add (A : Mat) (i : Fin 4096) : rowHalf A 0 i + rowHalf A 1 i = rowSum A i := by
  unfold rowHalf rowSum
  have h := Fin.sum_univ_add (M := EReal) (a := 2048) (b := 2048)
    (fun k : Fin (2048 + 2048) => A (ix2 i ⟨k.val, by have := k.isLt; omega⟩))
  refine Eq.trans ?_ (Eq.trans h.symm ?_)
  · congr 1 <;> refine Finset.sum_congr rfl fun k _ => ?_ <;> congr 2 <;> simp
  · rfl

/-- Adding the off-diagonal zero of the identity changes nothing. -/
theorem add_eye_of_ne (x : EReal) {i j : Fin 4096} (h : i ≠ j) : x + eye i j = x := by
  unfold eye; rw [if_neg h, zero_eq, add_zero]

end Cert.Spec

end
-- ==== Proof.KI.Region0Value.lean ====
/- What the first region leaves in its three arrays, on the extended reals, as functions of the matrix `A` it is
   entered with: the matrix itself is never written; the row-sum array holds, at (h, 0, i), the sum of the
   h-th half (2048 columns) of row i; the column-sum array holds, at (0, j), the sum of column j. A column sum
   is accumulated over the four row strips of a grid row: after the strip r of grid row h the staging buffer
   holds, at column q, the sum of the first 1024 (r + 1) rows of column 2048 h + q. -/
import proofs.«107320_g2000603544188606_pallasbulk_177_7_alg».proof.Proof.KI.Region0Pieces
import proofs.«107320_g2000603544188606_pallasbulk_177_7_alg».proof.Proof.KI.Region0Pay
import proofs.«107320_g2000603544188606_pallasbulk_177_7_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## Partial column sums -/

/-- The sum of the first `n` rows of column `j`. -/
def colPart (A : Cert.Spec.Mat) (j : Fin 4096) (n : ℕ) : EReal :=
  ∑ r ∈ Finset.range n, if h : r < 4096 then A (ix2 ⟨r, h⟩ j) else 0

theorem colPart_zero (A : Cert.Spec.Mat) (j : Fin 4096) : colPart A j 0 = 0 := by
  unfold colPart; rw [Finset.range_zero, Finset.sum_empty]

/-- All 4096 rows: the column sum. -/
theorem colPart_full (A : Cert.Spec.Mat) (j : Fin 4096) : colPart A j 4096 = Cert.Spec.colSum A j := by
  unfold colPart Cert.Spec.colSum
  exact (Finset.sum_fin_eq_sum_range (fun r : Fin 4096 => A (ix2 r j))).symm

/-- One more strip of 1024 rows. -/
theorem colPart_add (A : Cert.Spec.Mat) (j : Fin 4096) (a : ℕ) :
    colPart A j (a + 1024) = colPart A j a + ∑ r : Fin 1024, if h : a + r.val < 4096 then A (ix2 ⟨a + r.val, h⟩ j) else 0 := by
  unfold colPart
  rw [Finset.sum_range_add]
  exact congrArg (_ + ·) (Finset.sum_range (fun x => if h : a + x < 4096 then A (ix2 ⟨a + x, h⟩ j) else 0))

/-! ## The blocks -/

variable (V : (c : Dev nD) → (b : Ref sig .tc) → Buf (Elt Ideal) ((c : Thread nD τ).loc b))

/-- The block indices of the three windows at a point, decided over the grid: the point `t` is strip `t % 4` of grid
    row `t / 4`. -/
theorem idx0 : ∀ t : Fin cfg0.N, win0_0.index t (0 : Fin 2) = t.val % 4 ∧ win0_0.index t (1 : Fin 2) = t.val / 4
    ∧ win0_1.index t (0 : Fin 3) = t.val / 4 ∧ win0_1.index t (1 : Fin 3) = 0 ∧ win0_1.index t (2 : Fin 3) = t.val % 4
    ∧ win0_2.index t (0 : Fin 2) = 0 ∧ win0_2.index t (1 : Fin 2) = t.val / 4 :=
  (by decide +kernel : ∀ t : Fin grid0.N, _)

/-- The input block at point `t`, entry (r, k), is the matrix at row `1024 (t % 4) + r`, column `2048 (t / 4) + k`. -/
theorem iblk0_apply (c : Dev nD) (t : Fin cfg0.N) (r : Fin 1024) (k : Fin 2048) (R K : Fin 4096)
    (hR : R.val = 1024 * (t.val % 4) + r.val) (hK : K.val = 2048 * (t.val / 4) + k.val) :
    (iblk0 V c 0 t : Vec Ideal S1024x2048 .f32) (ix2 r k) = (V c main_arg0 : Cert.Spec.Mat) (ix2 R K) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 1024 + 1 * r.val = R.val; rw [e0, hR]; omega
  | ⟨1, _⟩ => show win0_0.index t (1 : Fin 2) * 2048 + 1 * k.val = K.val; rw [e1, hK]; omega

/-! ## The matrix is kept -/

theorem adj_kept0 (c : Dev nD) : (dat0 V c).arrAt 0 cfg0.N = V c main_arg0 :=
  ((dat0 V c).arrAt_in 0 rfl _).trans (A_eq0 V c 0)

/-! ## The row sums -/

/-- What the row-sum buffer holds after point `t`, at column `q`: the half-row sum of row `1024 (t % 4) + q`, half `t / 4`. -/
theorem rows_pt (c : Dev nD) (t : Fin cfg0.N) (u v : Fin 1) (q : Fin 1024) (h : Fin 2) (I : Fin 4096)
    (hh : h.val = t.val / 4) (hI : I.val = 1024 * (t.val % 4) + q.val) :
    ((outsAt0 V c t.val t.isLt).1 : Vec Ideal S1x1x1024 .f32) (ix3 u v q) = Cert.Spec.rowHalf (V c main_arg0) h I := by
  have key : k0_pay1 (F := Ideal) (iblk0 V c 0 t) (ix3 u v q) = Cert.Spec.rowHalf (V c main_arg0) h I := by
    refine (pay1_apply (iblk0 V c 0 t) u v q).trans ?_
    unfold Cert.Spec.rowHalf
    refine Finset.sum_congr rfl fun k _ => ?_
    exact iblk0_apply V c t q k I _ hI (by show 2048 * h.val + k.val = _; rw [hh])
  by_cases h0 : t.val % 4 = 0
  · rw [outsAt0_A V c t h0]
    dsimp only
    rw [out_A_1]
    exact key
  · rw [outsAt0_B V c t h0]
    dsimp only
    rw [out_B_1]
    exact key

/-- The row-sum array the region leaves. -/
def Rows (A : Cert.Spec.Mat) : S2x1x4096.Idx → EReal := fun x => Cert.Spec.rowHalf A (x 0) (x 2)

theorem flushed1_eq (c : Dev nD) (t : Fin cfg0.N) :
    (dat0 V c).flushed 1 t = ((cfg0.win 1).blk t).view.read (Elt Ideal) (Rows (V c main_arg0)) := by
  show (cfg0.win 1).cut (grid0.coords t) ((dat0 V c).after 1 t) = _
  rw [after0_1]
  obtain ⟨-, -, e0, e1, e2, -⟩ := idx0 t
  funext j
  obtain ⟨u, v, q, rfl⟩ : ∃ (u v : Fin 1) (q : Fin 1024), j = ix3 u v q := ⟨j 0, j 1, j 2, eq_ix3 j⟩
  show ((outsAt0 V c t.val t.isLt).1 : Vec Ideal S1x1x1024 .f32) (ix3 u v q) = Rows (V c main_arg0) (((cfg0.win 1).blk t).view.emb (ix3 u v q))
  unfold Rows
  refine rows_pt V c t u v q _ _ ?_ ?_
  · show win0_1.index t (0 : Fin 3) * 1 + 1 * u.val = t.val / 4; rw [e0]; omega
  · show win0_1.index t (2 : Fin 3) * 1024 + 1 * q.val = 1024 * (t.val % 4) + q.val; rw [e2]; omega

theorem mem_blk1 (t : Fin cfg0.N) (i : S2x1x4096.Idx) :
    i ∈ ((cfg0.win 1).blk t).view.set ↔ ∀ a : Fin 3, win0_1.index t a * S1x1x1024.size a ≤ (i a).val ∧ (i a).val < win0_1.index t a * S1x1x1024.size a + S1x1x1024.size a := by
  show i ∈ ((View.whole main_v0_0).slice (win0_1.rect t)).set ↔ _
  rw [View.set_slice_whole, Rect.mem_set_unit]
  exact Iff.rfl

theorem rows_arr (c : Dev nD) : (dat0 V c).arrAt 1 cfg0.N = Rows (V c main_arg0) :=
  (dat0 V c).arrAt_eq_of_cover 1 (Rows (V c main_arg0)) (fun t _ => flushed1_eq V c t) fun i => by
    have hN : cfg0.N = 8 := N_0
    have h0 : (i 0).val < 2 := (i 0).isLt
    have h1 : (i 1).val < 1 := (i 1).isLt
    have h2 : (i 2).val < 4096 := (i 2).isLt
    refine ⟨⟨4 * (i 0).val + (i 2).val / 1024, by rw [hN]; omega⟩, flush0_1 _, ?_⟩
    rw [mem_blk1]
    obtain ⟨-, -, e0, e1, e2, -⟩ := idx0 ⟨4 * (i 0).val + (i 2).val / 1024, by rw [hN]; omega⟩
    intro a
    match a with
    | ⟨0, _⟩ => show win0_1.index _ (0 : Fin 3) * 1 ≤ (i 0).val ∧ (i 0).val < win0_1.index _ (0 : Fin 3) * 1 + 1; rw [e0]; dsimp only; omega
    | ⟨1, _⟩ => show win0_1.index _ (1 : Fin 3) * 1 ≤ (i 1).val ∧ (i 1).val < win0_1.index _ (1 : Fin 3) * 1 + 1; rw [e1]; omega
    | ⟨2, _⟩ => show win0_1.index _ (2 : Fin 3) * 1024 ≤ (i 2).val ∧ (i 2).val < win0_1.index _ (2 : Fin 3) * 1024 + 1024; rw [e2]; dsimp only; omega

theorem rows_final (c : Dev nD) (h : Fin 2) (i : Fin 4096) :
    (dat0 V c).arrAt 1 cfg0.N (ix3 h (0 : Fin 1) i) = Cert.Spec.rowHalf (V c main_arg0) h i :=
  congrFun (rows_arr V c) (ix3 h (0 : Fin 1) i)

/-! ## The column sums -/

/-- One strip added: the partial column sum grows by the column sums of the input block at the point. -/
theorem colPart_strip (A : Cert.Spec.Mat) (x0 : Vec Ideal S1024x2048 .f32) (s : ℕ) (hs : s < 4) (q : Fin 2048) (J : Fin 4096)
    (hx : ∀ (r : Fin 1024) (R : Fin 4096), R.val = 1024 * s + r.val → x0 (ix2 r q) = A (ix2 R J)) :
    colPart A J (1024 * s + 1024) = colPart A J (1024 * s) + ∑ r : Fin 1024, x0 (ix2 r q) := by
  rw [colPart_add]
  refine congrArg (colPart A J (1024 * s) + ·) (Finset.sum_congr rfl fun r _ => ?_)
  have hlt : 1024 * s + r.val < 4096 := by have := r.isLt; omega
  rw [dif_pos hlt]
  exact (hx r ⟨1024 * s + r.val, hlt⟩ rfl).symm

/-- THE ACCUMULATION: after point `n` (strip `n % 4` of grid row `n / 4`) the column-sum buffer holds, at column `q`, the
    sum of the first `1024 (n % 4 + 1)` rows of column `2048 (n / 4) + q` — by induction on the point. -/
theorem acc_eq (c : Dev nD) : ∀ (n : ℕ) (hn : n < cfg0.N) (u : Fin 1) (q : Fin 2048) (J : Fin 4096) (hJ : J.val = 2048 * (n / 4) + q.val),
    ((outsAt0 V c n hn).2 : Vec Ideal S1x2048 .f32) (ix2 u q) = colPart (V c main_arg0) J (1024 * (n % 4 + 1))
  | n, hn, u, q, J, hJ => by
    have hN : cfg0.N = 8 := N_0
    by_cases h0 : n % 4 = 0
    · rw [outsAt0_A V c ⟨n, hn⟩ h0]
      dsimp only
      rw [out_A_2]
      refine (pay3_apply _ _ u q).trans ?_
      rw [pay2_apply, zero_add, show 1024 * (n % 4 + 1) = 1024 * (n % 4) + 1024 from by omega,
        colPart_strip (V c main_arg0) (iblk0 V c 0 ⟨n, hn⟩) (n % 4) (by omega) q J
          (fun r R hR => iblk0_apply V c ⟨n, hn⟩ r q R J hR hJ),
        h0, Nat.mul_zero, colPart_zero, zero_add]
    · rw [outsAt0_B V c ⟨n, hn⟩ h0]
      dsimp only
      rw [out_B_2]
      refine (pay3_apply _ _ u q).trans ?_
      rw [acc_eq c (n - 1) (Nat.lt_of_le_of_lt (Nat.sub_le _ _) hn) u q J (by rw [hJ]; omega),
        show 1024 * (n % 4 + 1) = 1024 * (n % 4) + 1024 from by omega,
        colPart_strip (V c main_arg0) (iblk0 V c 0 ⟨n, hn⟩) (n % 4) (by omega) q J
          (fun r R hR => iblk0_apply V c ⟨n, hn⟩ r q R J hR hJ),
        show 1024 * ((n - 1) % 4 + 1) = 1024 * (n % 4) from by omega]
  termination_by n => n
  decreasing_by omega

/-- The column-sum array the region leaves. -/
def Cols (A : Cert.Spec.Mat) : S1x4096.Idx → EReal := fun x => Cert.Spec.colSum A (x 1)

theorem flushed2_eq (c : Dev nD) (t : Fin cfg0.N) (hf : (cfg0.win 2).flush t = true) :
    (dat0 V c).flushed 2 t = ((cfg0.win 2).blk t).view.read (Elt Ideal) (Cols (V c main_arg0)) := by
  have h3 : t.val % 4 = 3 := (flush0_2 t).mp hf
  show (cfg0.win 2).cut (grid0.coords t) ((dat0 V c).after 2 t) = _
  rw [after0_2]
  obtain ⟨-, -, -, -, -, e0, e1⟩ := idx0 t
  funext j
  obtain ⟨u, q, rfl⟩ : ∃ (u : Fin 1) (q : Fin 2048), j = ix2 u q := ⟨j 0, j 1, eq_ix2 j⟩
  show ((outsAt0 V c t.val t.isLt).2 : Vec Ideal S1x2048 .f32) (ix2 u q) = Cols (V c main_arg0) (((cfg0.win 2).blk t).view.emb (ix2 u q))
  unfold Cols
  refine (acc_eq V c t.val t.isLt u q (((cfg0.win 2).blk t).view.emb (ix2 u q) 1) ?_).trans ?_
  · show win0_2.index t (1 : Fin 2) * 2048 + 1 * q.val = 2048 * (t.val / 4) + q.val; rw [e1]; omega
  · rw [h3]; exact colPart_full _ _

theorem mem_blk2 (t : Fin cfg0.N) (i : S1x4096.Idx) :
    i ∈ ((cfg0.win 2).blk t).view.set ↔ ∀ a : Fin 2, win0_2.index t a * S1x2048.size a ≤ (i a).val ∧ (i a).val < win0_2.index t a * S1x2048.size a + S1x2048.size a := by
  show i ∈ ((View.whole main_v0_1).slice (win0_2.rect t)).set ↔ _
  rw [View.set_slice_whole, Rect.mem_set_unit]
  exact Iff.rfl

theorem cols_arr (c : Dev nD) : (dat0 V c).arrAt 2 cfg0.N = Cols (V c main_arg0) :=
  (dat0 V c).arrAt_eq_of_cover 2 (Cols (V c main_arg0)) (flushed2_eq V c) fun i => by
    have hN : cfg0.N = 8 := N_0
    have h0 : (i 0).val < 1 := (i 0).isLt
    have h1 : (i 1).val < 4096 := (i 1).isLt
    refine ⟨⟨4 * ((i 1).val / 2048) + 3, by rw [hN]; omega⟩, (flush0_2 _).mpr (by dsimp only; omega), ?_⟩
    rw [mem_blk2]
    obtain ⟨-, -, -, -, -, e0, e1⟩ := idx0 ⟨4 * ((i 1).val / 2048) + 3, by rw [hN]; omega⟩
    intro a
    match a with
    | ⟨0, _⟩ => show win0_2.index _ (0 : Fin 2) * 1 ≤ (i 0).val ∧ (i 0).val < win0_2.index _ (0 : Fin 2) * 1 + 1; rw [e0]; omega
    | ⟨1, _⟩ => show win0_2.index _ (1 : Fin 2) * 2048 ≤ (i 1).val ∧ (i 1).val < win0_2.index _ (1 : Fin 2) * 2048 + 2048; rw [e1]; dsimp only; omega

theorem cols_final (c : Dev nD) (j : Fin 4096) :
    (dat0 V c).arrAt 2 cfg0.N (ix2 (0 : Fin 1) j) = Cert.Spec.colSum (V c main_arg0) j :=
  congrFun (cols_arr V c) (ix2 (0 : Fin 1) j)

end Cert.KernelIdeal.Hand

end
-- ==== Proof.KI.Region1Pieces.lean ====
/- What each control case of the scaling kernel leaves in its output block, as the body's arithmetic of the six
   input blocks: on a diagonal block the product with the identity added, on an off-diagonal block without it.
   The row scale reads the two half-row-sum rows and the column-sum row of its own block row; the column scale
   those of its block column. Generic in the float model. -/
import proofs.«107320_g2000603544188606_pallasbulk_177_7_alg».proof.Proof.KI.Region1
import Idealize.ShloMosaic.Lib.Pipeline.Value
import Idealize.ShloMosaic.Lib.Tactic

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem hz2 : (![0, 0] : Fin 2 → Nat) = fun _ => 0 := funext fun a => by fin_cases a <;> rfl

/-- The two rows of a [2,1,1024] block, as the body loads them. -/
abbrev rA1 : Rect S2x1x1024 := Rect.unit (s := S2x1x1024) ![0, 0, 0] S1x1x1024.size inb_S2x1x1024_S1x1x1024_0_0_0
abbrev rB1 : Rect S2x1x1024 := Rect.unit (s := S2x1x1024) ![1, 0, 0] S1x1x1024.size inb_S2x1x1024_S1x1x1024_1_0_0

/-- A diagonal block: the one covering store's payload, its loads reading the whole input buffers (and the two rows of each [2,1,1024] one). -/
theorem out_D (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : cond1_0 i) (hc1 : ¬cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) :
    out1_D_6 c i arg2 harg2 arg3 harg3 arg4 harg4 arg5 harg5 arg6 harg6 arg7 harg7 arg8 harg8 hc0 hc1 x0 x1 x2 x3 x4 x5
      = k1_pay3 (k1_pay5 (View.ld x2 rA1) (View.ld x2 rB1) x3) (k1_pay7 (View.ld x4 rA1) (View.ld x4 rB1) x5) (k1_pay8 (View.ld x4 rA1) (View.ld x4 rB1) x5) k1_pay9 x0 x1 := by
  unfold out1_D_6
  rw [View.read_writes_eq_canon _ _ _ (cover1_D_6 c i arg2 harg2 arg3 harg3 arg4 harg4 arg5 harg5 arg6 harg6 arg7 harg7 arg8 harg8 hc0 hc1 x0 x1 x2 x3 x4 x5)]
  unfold kernelRun1_D
  dsimp only
  sl_unfold_words
  rw [View.canon_unit_zero hz2]
  simp only [View.readAt_eq_ld, harg2.read_unread, harg3.read_unread, harg4.read_unread, harg5.read_unread, harg6.read_unread, harg7.read_unread, View.ld_unit_zero (S := S1024x1024) hz2, View.ld_unit_zero (S := S1x1024) hz2]

/-- An off-diagonal block: the same without the identity. -/
theorem out_O (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S2x1x1024 .f32) (harg4 : arg4.IsWhole) (arg5 : Memref sig .tc .vmem S1x1024 .f32) (harg5 : arg5.IsWhole) (arg6 : Memref sig .tc .vmem S2x1x1024 .f32) (harg6 : arg6.IsWhole) (arg7 : Memref sig .tc .vmem S1x1024 .f32) (harg7 : arg7.IsWhole) (arg8 : Memref sig .tc .vmem S1024x1024 .f32) (harg8 : arg8.IsWhole) (hc0 : ¬cond1_0 i) (hc1 : cond1_1 i)
    (x0 : Vec F S1024x1024 .f32) (x1 : Vec F S1024x1024 .f32) (x2 : Vec F S2x1x1024 .f32) (x3 : Vec F S1x1024 .f32) (x4 : Vec F S2x1x1024 .f32) (x5 : Vec F S1x1024 .f32) :
    out1_O_6 c i arg2 harg2 arg3 harg3 arg4 harg4 arg5 harg5 arg6 harg6 arg7 harg7 arg8 harg8 hc0 hc1 x0 x1 x2 x3 x4 x5
      = k1_pay4 (k1_pay5 (View.ld x2 rA1) (View.ld x2 rB1) x3) (k1_pay7 (View.ld x4 rA1) (View.ld x4 rB1) x5) (k1_pay8 (View.ld x4 rA1) (View.ld x4 rB1) x5) k1_pay9 x0 x1 := by
  unfold out1_O_6
  rw [View.read_writes_eq_canon _ _ _ (cover1_O_6 c i arg2 harg2 arg3 harg3 arg4 harg4 arg5 harg5 arg6 harg6 arg7 harg7 arg8 harg8 hc0 hc1 x0 x1 x2 x3 x4 x5)]
  unfold kernelRun1_O
  dsimp only
  sl_unfold_words
  rw [View.canon_unit_zero hz2]
  simp only [View.readAt_eq_ld, harg2.read_unread, harg3.read_unread, harg4.read_unread, harg5.read_unread, harg6.read_unread, harg7.read_unread, View.ld_unit_zero (S := S1024x1024) hz2, View.ld_unit_zero (S := S1x1024) hz2]

end Cert.KernelIdeal.Hand.R1

end
-- ==== Proof.KI.Region1Pay.lean ====
/- The scaling kernel's arithmetic read at one entry of a block, on the extended reals: the row scale is the
   guarded inverse square root of half the sum of the two half-row sums and the column sum, plus one, read at the
   entry's row; the column scale the same at the entry's column; the middle factor is half the sum of the entry
   and its mirror image, plus — on a diagonal block — one where the local row and column agree. -/
import proofs.«107320_g2000603544188606_pallasbulk_177_7_alg».proof.Proof.KI.Region1Pieces
import proofs.«107320_g2000603544188606_pallasbulk_177_7_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx

open Cert.Spec (half one zero guard)

/-- Reading a unit-stride rectangle at zero offsets of the last axis, row 0 of a [2,1,1024] block. -/
theorem rA1_idx (u v : Fin 1) (p : Fin 1024) : rA1.idx (ix3 u v p) = ix3 (0 : Fin 2) (0 : Fin 1) p := by
  funext a; apply Fin.ext
  match a with
  | ⟨0, _⟩ => show 0 + 1 * u.val = 0; omega
  | ⟨1, _⟩ => show 0 + 1 * v.val = 0; omega
  | ⟨2, _⟩ => show 0 + 1 * p.val = p.val; omega

/-- Row 1 of a [2,1,1024] block. -/
theorem rB1_idx (u v : Fin 1) (p : Fin 1024) : rB1.idx (ix3 u v p) = ix3 (1 : Fin 2) (0 : Fin 1) p := by
  funext a; apply Fin.ext
  match a with
  | ⟨0, _⟩ => show 1 + 1 * u.val = 1; omega
  | ⟨1, _⟩ => show 0 + 1 * v.val = 0; omega
  | ⟨2, _⟩ => show 0 + 1 * p.val = p.val; omega

/-- The scale of row (or column) `p` of a block, from the block's two half-row-sum rows and its column-sum row. -/
def scaleAt (y2 : Vec Ideal S2x1x1024 .f32) (y3 : Vec Ideal S1x1024 .f32) (p : Fin 1024) : EReal :=
  guard (half * ((y2 (ix3 (0 : Fin 2) (0 : Fin 1) p) + y2 (ix3 (1 : Fin 2) (0 : Fin 1) p)) + y3 (ix2 (0 : Fin 1) p)) + one)

theorem ld_rA1 (x2 : Vec Ideal S2x1x1024 .f32) (p : Fin 1024) :
    shapeCast S1x1024 (View.ld x2 rA1) shapeCasts_S1x1x1024_S1x1024 (ix2 (0 : Fin 1) p) = x2 (ix3 (0 : Fin 2) (0 : Fin 1) p) :=
  (shapeCast_1ab_ab_apply (View.ld x2 rA1) shapeCasts_S1x1x1024_S1x1024 (0 : Fin 1) p).trans (congrArg x2 (rA1_idx 0 0 p))

theorem ld_rB1 (x2 : Vec Ideal S2x1x1024 .f32) (p : Fin 1024) :
    shapeCast S1x1024 (View.ld x2 rB1) shapeCasts_S1x1x1024_S1x1024 (ix2 (0 : Fin 1) p) = x2 (ix3 (1 : Fin 2) (0 : Fin 1) p) :=
  (shapeCast_1ab_ab_apply (View.ld x2 rB1) shapeCasts_S1x1x1024_S1x1024 (0 : Fin 1) p).trans (congrArg x2 (rB1_idx 0 0 p))

theorem cast_self1 (x3 : Vec Ideal S1x1024 .f32) (p : Fin 1024) :
    shapeCast S1x1024 x3 shapeCasts_S1x1024_S1x1024 (ix2 (0 : Fin 1) p) = x3 (ix2 (0 : Fin 1) p) :=
  congrFun (shapeCast_self x3 _) _

/-- The degree row of a block at `p`. -/
theorem pay6_apply (x4 : Vec Ideal S2x1x1024 .f32) (x5 : Vec Ideal S1x1024 .f32) (q : Fin 1024) :
    k1_pay6 (F := Ideal) (View.ld x4 rA1) (View.ld x4 rB1) x5 (ix2 (0 : Fin 1) q)
      = half * ((x4 (ix3 (0 : Fin 2) (0 : Fin 1) q) + x4 (ix3 (1 : Fin 2) (0 : Fin 1) q)) + x5 (ix2 (0 : Fin 1) q)) + one := by
  unfold k1_pay6
  show half * ((shapeCast S1x1024 (View.ld x4 rA1) shapeCasts_S1x1x1024_S1x1024 (ix2 (0 : Fin 1) q) + shapeCast S1x1024 (View.ld x4 rB1) shapeCasts_S1x1x1024_S1x1024 (ix2 (0 : Fin 1) q)) + shapeCast S1x1024 x5 shapeCasts_S1x1024_S1x1024 (ix2 (0 : Fin 1) q)) + one = _
  rw [ld_rA1, ld_rB1, cast_self1]

/-- The column scale of a block at column `q`. -/
theorem pay1_apply (x4 : Vec Ideal S2x1x1024 .f32) (x5 : Vec Ideal S1x1024 .f32) (q : Fin 1024) :
    k1_pay1 (F := Ideal) (k1_pay7 (View.ld x4 rA1) (View.ld x4 rB1) x5) (k1_pay8 (View.ld x4 rA1) (View.ld x4 rB1) x5) k1_pay9 (ix2 (0 : Fin 1) q)
      = scaleAt x4 x5 q := by
  unfold k1_pay1 k1_pay7 k1_pay8 k1_pay9 scaleAt Cert.Spec.guard
  show Scalar.select (FloatOps.cmpf .ogt (k1_pay6 (F := Ideal) (View.ld x4 rA1) (View.ld x4 rB1) x5 (ix2 (0 : Fin 1) q)) zero)
      (Ideal.rsqrt (k1_pay6 (F := Ideal) (View.ld x4 rA1) (View.ld x4 rB1) x5 (ix2 (0 : Fin 1) q))) zero = _
  rw [pay6_apply]

/-- The row scale of a block at row `p`. -/
theorem pay5_apply (x2 : Vec Ideal S2x1x1024 .f32) (x3 : Vec Ideal S1x1024 .f32) (p : Fin 1024) :
    k1_pay5 (F := Ideal) (View.ld x2 rA1) (View.ld x2 rB1) x3 (ix2 p (0 : Fin 1)) = scaleAt x2 x3 p := by
  unfold k1_pay5
  refine (transpose_ix2_apply _ transposes_S1x1024_p1_0_S1024x1 p (0 : Fin 1)).trans ?_
  unfold scaleAt Cert.Spec.guard
  show Scalar.select (FloatOps.cmpf (F := Ideal) (φ := .f32) .ogt (half * ((shapeCast S1x1024 (View.ld x2 rA1) shapeCasts_S1x1x1024_S1x1024 (ix2 (0 : Fin 1) p) + shapeCast S1x1024 (View.ld x2 rB1) shapeCasts_S1x1x1024_S1x1024 (ix2 (0 : Fin 1) p)) + shapeCast S1x1024 x3 shapeCasts_S1x1024_S1x1024 (ix2 (0 : Fin 1) p)) + one) zero)
      (Ideal.rsqrt (half * ((shapeCast S1x1024 (View.ld x2 rA1) shapeCasts_S1x1x1024_S1x1024 (ix2 (0 : Fin 1) p) + shapeCast S1x1024 (View.ld x2 rB1) shapeCasts_S1x1x1024_S1x1024 (ix2 (0 : Fin 1) p)) + shapeCast S1x1024 x3 shapeCasts_S1x1024_S1x1024 (ix2 (0 : Fin 1) p)) + one)) zero = _
  rw [ld_rA1, ld_rB1, cast_self1]

/-- Half the sum of an entry and its mirror image. -/
theorem pay2_apply (x0 x1 : Vec Ideal S1024x1024 .f32) (p q : Fin 1024) :
    k1_pay2 (F := Ideal) x0 x1 (ix2 p q) = half * (x0 (ix2 p q) + x1 (ix2 q p)) := by
  unfold k1_pay2
  show half * (x0 (ix2 p q) + transpose S1024x1024 [1, 0] x1 transposes_S1024x1024_p1_0_S1024x1024 (ix2 p q)) = _
  rw [transpose_ix2_apply x1 transposes_S1024x1024_p1_0_S1024x1024 p q]

/-- A column [1024,1] broadcast over the columns reads its row. -/
theorem bcast_col (v : (⟨2, ![1024, 1]⟩ : Shape).Idx → EReal) (h : (⟨2, ![1024, 1]⟩ : Shape).Broadcasts ⟨2, ![1024, 1024]⟩) (p q : Fin 1024) :
    broadcastTo ⟨2, ![1024, 1024]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The local identity: one where the local row and column agree. -/
theorem eye_local (p q : Fin 1024) :
    (select (cmpi .eq (iota .tc S1024x1024 32 [0] iota_S1024x1024_d0_w32) (iota .tc S1024x1024 32 [1] iota_S1024x1024_d1_w32))
      (broadcast S1024x1024 (one : EReal)) (broadcast S1024x1024 (zero : EReal)) : S1024x1024.Idx → EReal) (ix2 p q) = if p = q then one else zero := by
  show Scalar.select (IntOp.cmpi .eq (iota .tc S1024x1024 32 [0] iota_S1024x1024_d0_w32 (ix2 p q)) (iota .tc S1024x1024 32 [1] iota_S1024x1024_d1_w32 (ix2 p q))) one zero = _
  rw [iota_single_apply, iota_single_apply]
  show (if IntOp.cmpi .eq (BitVec.ofNat 32 p.val) (BitVec.ofNat 32 q.val) = 1#1 then one else zero) = _
  by_cases h : p = q
  · subst h; rw [if_pos rfl, if_pos (IntOp.cmpi_eq.mpr rfl)]
  · rw [if_neg h, if_neg]
    intro hc
    have e := congrArg BitVec.toNat (IntOp.cmpi_eq.mp hc)
    simp only [BitVec.toNat_ofNat] at e
    have hp := p.isLt; have hq := q.isLt
    exact h (Fin.ext (by omega))

/-- A diagonal block's entry: the row scale times (the symmetrised entry plus the local identity) times the column scale. -/
theorem pay3_apply (x0 : Vec Ideal S1024x1024 .f32) (x1 : Vec Ideal S1024x1024 .f32) (x2 : Vec Ideal S2x1x1024 .f32) (x3 : Vec Ideal S1x1024 .f32) (x4 : Vec Ideal S2x1x1024 .f32) (x5 : Vec Ideal S1x1024 .f32) (p q : Fin 1024) :
    k1_pay3 (F := Ideal) (k1_pay5 (F := Ideal) (View.ld x2 rA1) (View.ld x2 rB1) x3) (k1_pay7 (F := Ideal) (View.ld x4 rA1) (View.ld x4 rB1) x5) (k1_pay8 (F := Ideal) (View.ld x4 rA1) (View.ld x4 rB1) x5) k1_pay9 x0 x1 (ix2 p q)
      = (scaleAt x2 x3 p * (half * (x0 (ix2 p q) + x1 (ix2 q p)) + if p = q then one else zero)) * scaleAt x4 x5 q := by
  unfold k1_pay3
  show (broadcastTo S1024x1024 (k1_pay5 (F := Ideal) (View.ld x2 rA1) (View.ld x2 rB1) x3) broadcasts_S1024x1_S1024x1024 (ix2 p q)
        * (k1_pay2 (F := Ideal) x0 x1 (ix2 p q)
            + (select (cmpi .eq (iota .tc S1024x1024 32 [0] iota_S1024x1024_d0_w32) (iota .tc S1024x1024 32 [1] iota_S1024x1024_d1_w32))
                (broadcast S1024x1024 (one : EReal)) (broadcast S1024x1024 (zero : EReal)) : S1024x1024.Idx → EReal) (ix2 p q)))
      * broadcastTo S1024x1024 (k1_pay1 (F := Ideal) (k1_pay7 (F := Ideal) (View.ld x4 rA1) (View.ld x4 rB1) x5) (k1_pay8 (F := Ideal) (View.ld x4 rA1) (View.ld x4 rB1) x5) k1_pay9) broadcasts_S1x1024_S1024x1024 (ix2 p q) = _
  rw [bcast_col, pay5_apply, pay2_apply, eye_local, broadcastTo_1b_ab_apply, pay1_apply]

/-- An off-diagonal block's entry: the same without the identity. -/
theorem pay4_apply (x0 : Vec Ideal S1024x1024 .f32) (x1 : Vec Ideal S1024x1024 .f32) (x2 : Vec Ideal S2x1x1024 .f32) (x3 : Vec Ideal S1x1024 .f32) (x4 : Vec Ideal S2x1x1024 .f32) (x5 : Vec Ideal S1x1024 .f32) (p q : Fin 1024) :
    k1_pay4 (F := Ideal) (k1_pay5 (F := Ideal) (View.ld x2 rA1) (View.ld x2 rB1) x3) (k1_pay7 (F := Ideal) (View.ld x4 rA1) (View.ld x4 rB1) x5) (k1_pay8 (F := Ideal) (View.ld x4 rA1) (View.ld x4 rB1) x5) k1_pay9 x0 x1 (ix2 p q)
      = (scaleAt x2 x3 p * (half * (x0 (ix2 p q) + x1 (ix2 q p)))) * scaleAt x4 x5 q := by
  unfold k1_pay4
  show (broadcastTo S1024x1024 (k1_pay5 (F := Ideal) (View.ld x2 rA1) (View.ld x2 rB1) x3) broadcasts_S1024x1_S1024x1024 (ix2 p q)
        * k1_pay2 (F := Ideal) x0 x1 (ix2 p q))
      * broadcastTo S1024x1024 (k1_pay1 (F := Ideal) (k1_pay7 (F := Ideal) (View.ld x4 rA1) (View.ld x4 rB1) x5) (k1_pay8 (F := Ideal) (View.ld x4 rA1) (View.ld x4 rB1) x5) k1_pay9) broadcasts_S1x1024_S1024x1024 (ix2 p q) = _
  rw [bcast_col, pay5_apply, pay2_apply, broadcastTo_1b_ab_apply, pay1_apply]

end Cert.KernelIdeal.Hand.R1

end
-- ==== Proof.KI.Region1Value.lean ====
/- What the second region leaves in its output array, as one function of the contents the region is entered
   with: entry (i, j) is the scale of row i times (the symmetrised entry plus the identity) times the scale of
   column j, the scale of a row the guarded inverse square root of half the sum of its two half-row sums and its
   column sum, plus one. Each grid point writes back its 1024×1024 block of that function: a block's element
   sits at block index × 1024 + its coordinate inside the block; on a diagonal block the local identity is the
   global one, off the diagonal the global identity vanishes. The sixteen blocks tile the array. -/
import proofs.«107320_g2000603544188606_pallasbulk_177_7_alg».proof.Proof.KI.Region1Pay
import Idealize.ShloMosaic.Lib.Pipeline.Value

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx

open Cert.Spec (half one zero guard)

variable (V : (c : Dev nD) → (b : Ref sig .tc) → Buf (Elt Ideal) ((c : Thread nD τ).loc b)) (c : Dev nD)

/-- The half-row-sum rows and the column-sum row as the region finds them, as arrays of extended reals. -/
abbrev rows1 : S2x1x4096.Idx → EReal := V c main_v0_0
abbrev cols1 : S1x4096.Idx → EReal := V c main_v0_1

/-! ## The printed index maps, decided over the grid -/

theorem idx1_0 : ∀ t : Fin cfg1.N, win1_0.index t (0 : Fin 2) = t.val / 4 ∧ win1_0.index t (1 : Fin 2) = t.val % 4 :=
  (by decide +kernel : ∀ t : Fin grid1.N, win1_0.index t (0 : Fin 2) = t.val / 4 ∧ win1_0.index t (1 : Fin 2) = t.val % 4)
theorem idx1_1 : ∀ t : Fin cfg1.N, win1_1.index t (0 : Fin 2) = t.val % 4 ∧ win1_1.index t (1 : Fin 2) = t.val / 4 :=
  (by decide +kernel : ∀ t : Fin grid1.N, win1_1.index t (0 : Fin 2) = t.val % 4 ∧ win1_1.index t (1 : Fin 2) = t.val / 4)
theorem idx1_2 : ∀ t : Fin cfg1.N, win1_2.index t (0 : Fin 3) = 0 ∧ win1_2.index t (1 : Fin 3) = 0 ∧ win1_2.index t (2 : Fin 3) = t.val / 4 :=
  (by decide +kernel : ∀ t : Fin grid1.N, win1_2.index t (0 : Fin 3) = 0 ∧ win1_2.index t (1 : Fin 3) = 0 ∧ win1_2.index t (2 : Fin 3) = t.val / 4)
theorem idx1_3 : ∀ t : Fin cfg1.N, win1_3.index t (0 : Fin 2) = 0 ∧ win1_3.index t (1 : Fin 2) = t.val / 4 :=
  (by decide +kernel : ∀ t : Fin grid1.N, win1_3.index t (0 : Fin 2) = 0 ∧ win1_3.index t (1 : Fin 2) = t.val / 4)
theorem idx1_4 : ∀ t : Fin cfg1.N, win1_4.index t (0 : Fin 3) = 0 ∧ win1_4.index t (1 : Fin 3) = 0 ∧ win1_4.index t (2 : Fin 3) = t.val % 4 :=
  (by decide +kernel : ∀ t : Fin grid1.N, win1_4.index t (0 : Fin 3) = 0 ∧ win1_4.index t (1 : Fin 3) = 0 ∧ win1_4.index t (2 : Fin 3) = t.val % 4)
theorem idx1_5 : ∀ t : Fin cfg1.N, win1_5.index t (0 : Fin 2) = 0 ∧ win1_5.index t (1 : Fin 2) = t.val % 4 :=
  (by decide +kernel : ∀ t : Fin grid1.N, win1_5.index t (0 : Fin 2) = 0 ∧ win1_5.index t (1 : Fin 2) = t.val % 4)
theorem idx1_6 : ∀ t : Fin cfg1.N, win1_6.index t (0 : Fin 2) = t.val / 4 ∧ win1_6.index t (1 : Fin 2) = t.val % 4 :=
  (by decide +kernel : ∀ t : Fin grid1.N, win1_6.index t (0 : Fin 2) = t.val / 4 ∧ win1_6.index t (1 : Fin 2) = t.val % 4)

/-! ## Global rows and columns of a block's entries -/

/-- The global row of local row `p` at point `t` (block row `t / 4`). -/
def gi (t : Fin cfg1.N) (p : Fin 1024) : Fin 4096 :=
  ⟨1024 * (t.val / 4) + p.val, by have := lt_of_lt_of_eq t.isLt (show cfg1.N = 16 from N_1); have := p.isLt; omega⟩
/-- The global column of local column `q` at point `t` (block column `t % 4`). -/
def gj (t : Fin cfg1.N) (q : Fin 1024) : Fin 4096 :=
  ⟨1024 * (t.val % 4) + q.val, by have := q.isLt; omega⟩

/-! ## The input blocks, read where the windows' rectangles say -/

theorem blk0 (t : Fin cfg1.N) (p q : Fin 1024) : iblk1 V c 0 t (ix2 p q) = V c main_arg0 (ix2 (gi t p) (gj t q)) := by
  obtain ⟨e0, e1⟩ := idx1_0 t
  show V c main_arg0 (((cfg1.win 0).blk t).view.emb (ix2 p q)) = _
  refine congrArg (V c main_arg0) (funext fun a => Fin.ext ?_)
  match a with
  | ⟨0, _⟩ => show win1_0.index t (0 : Fin 2) * 1024 + 1 * p.val = 1024 * (t.val / 4) + p.val; rw [e0]; omega
  | ⟨1, _⟩ => show win1_0.index t (1 : Fin 2) * 1024 + 1 * q.val = 1024 * (t.val % 4) + q.val; rw [e1]; omega

theorem blk1 (t : Fin cfg1.N) (p q : Fin 1024) : iblk1 V c 1 t (ix2 q p) = V c main_arg0 (ix2 (gj t q) (gi t p)) := by
  obtain ⟨e0, e1⟩ := idx1_1 t
  show V c main_arg0 (((cfg1.win 1).blk t).view.emb (ix2 q p)) = _
  refine congrArg (V c main_arg0) (funext fun a => Fin.ext ?_)
  match a with
  | ⟨0, _⟩ => show win1_1.index t (0 : Fin 2) * 1024 + 1 * q.val = 1024 * (t.val % 4) + q.val; rw [e0]; omega
  | ⟨1, _⟩ => show win1_1.index t (1 : Fin 2) * 1024 + 1 * p.val = 1024 * (t.val / 4) + p.val; rw [e1]; omega

theorem blk2 (t : Fin cfg1.N) (h : Fin 2) (p : Fin 1024) : iblk1 V c 2 t (ix3 h (0 : Fin 1) p) = rows1 V c (ix3 h (0 : Fin 1) (gi t p)) := by
  obtain ⟨e0, e1, e2⟩ := idx1_2 t
  show V c main_v0_0 (((cfg1.win 2).blk t).view.emb (ix3 h (0 : Fin 1) p)) = _
  refine congrArg (V c main_v0_0) (funext fun a => Fin.ext ?_)
  match a with
  | ⟨0, _⟩ => show win1_2.index t (0 : Fin 3) * 2 + 1 * h.val = h.val; rw [e0]; omega
  | ⟨1, _⟩ => show win1_2.index t (1 : Fin 3) * 1 + 1 * 0 = 0; rw [e1]
  | ⟨2, _⟩ => show win1_2.index t (2 : Fin 3) * 1024 + 1 * p.val = 1024 * (t.val / 4) + p.val; rw [e2]; omega

theorem blk3 (t : Fin cfg1.N) (p : Fin 1024) : iblk1 V c 3 t (ix2 (0 : Fin 1) p) = cols1 V c (ix2 (0 : Fin 1) (gi t p)) := by
  obtain ⟨e0, e1⟩ := idx1_3 t
  show V c main_v0_1 (((cfg1.win 3).blk t).view.emb (ix2 (0 : Fin 1) p)) = _
  refine congrArg (V c main_v0_1) (funext fun a => Fin.ext ?_)
  match a with
  | ⟨0, _⟩ => show win1_3.index t (0 : Fin 2) * 1 + 1 * 0 = 0; rw [e0]
  | ⟨1, _⟩ => show win1_3.index t (1 : Fin 2) * 1024 + 1 * p.val = 1024 * (t.val / 4) + p.val; rw [e1]; omega

theorem blk4 (t : Fin cfg1.N) (h : Fin 2) (q : Fin 1024) : iblk1 V c 4 t (ix3 h (0 : Fin 1) q) = rows1 V c (ix3 h (0 : Fin 1) (gj t q)) := by
  obtain ⟨e0, e1, e2⟩ := idx1_4 t
  show V c main_v0_0 (((cfg1.win 4).blk t).view.emb (ix3 h (0 : Fin 1) q)) = _
  refine congrArg (V c main_v0_0) (funext fun a => Fin.ext ?_)
  match a with
  | ⟨0, _⟩ => show win1_4.index t (0 : Fin 3) * 2 + 1 * h.val = h.val; rw [e0]; omega
  | ⟨1, _⟩ => show win1_4.index t (1 : Fin 3) * 1 + 1 * 0 = 0; rw [e1]
  | ⟨2, _⟩ => show win1_4.index t (2 : Fin 3) * 1024 + 1 * q.val = 1024 * (t.val % 4) + q.val; rw [e2]; omega

theorem blk5 (t : Fin cfg1.N) (q : Fin 1024) : iblk1 V c 5 t (ix2 (0 : Fin 1) q) = cols1 V c (ix2 (0 : Fin 1) (gj t q)) := by
  obtain ⟨e0, e1⟩ := idx1_5 t
  show V c main_v0_1 (((cfg1.win 5).blk t).view.emb (ix2 (0 : Fin 1) q)) = _
  refine congrArg (V c main_v0_1) (funext fun a => Fin.ext ?_)
  match a with
  | ⟨0, _⟩ => show win1_5.index t (0 : Fin 2) * 1 + 1 * 0 = 0; rw [e0]
  | ⟨1, _⟩ => show win1_5.index t (1 : Fin 2) * 1024 + 1 * q.val = 1024 * (t.val % 4) + q.val; rw [e1]; omega

/-- Where the output block's element sits in the array. -/
theorem emb6 (t : Fin cfg1.N) (p q : Fin 1024) : ((cfg1.win 6).blk t).view.emb (ix2 p q) = ix2 (gi t p) (gj t q) := by
  obtain ⟨e0, e1⟩ := idx1_6 t
  refine funext fun a => Fin.ext ?_
  match a with
  | ⟨0, _⟩ => show win1_6.index t (0 : Fin 2) * 1024 + 1 * p.val = 1024 * (t.val / 4) + p.val; rw [e0]; omega
  | ⟨1, _⟩ => show win1_6.index t (1 : Fin 2) * 1024 + 1 * q.val = 1024 * (t.val % 4) + q.val; rw [e1]; omega

/-! ## The function the region leaves -/

/-- The scale of global row (or column) `i`. -/
def gScale (i : Fin 4096) : EReal :=
  guard (half * ((rows1 V c (ix3 (0 : Fin 2) (0 : Fin 1) i) + rows1 V c (ix3 (1 : Fin 2) (0 : Fin 1) i)) + cols1 V c (ix2 (0 : Fin 1) i)) + one)

/-- The output array after the region. -/
def G1 : S4096x4096.Idx → EReal := fun x =>
  (gScale V c (x 0) * (Cert.Spec.sym (V c main_arg0) (x 0) (x 1) + Cert.Spec.eye (x 0) (x 1))) * gScale V c (x 1)

theorem scale_row (t : Fin cfg1.N) (p : Fin 1024) : scaleAt (iblk1 V c 2 t) (iblk1 V c 3 t) p = gScale V c (gi t p) := by
  unfold scaleAt gScale
  rw [blk2 V c t 0 p, blk2 V c t 1 p, blk3 V c t p]

theorem scale_col (t : Fin cfg1.N) (q : Fin 1024) : scaleAt (iblk1 V c 4 t) (iblk1 V c 5 t) q = gScale V c (gj t q) := by
  unfold scaleAt gScale
  rw [blk4 V c t 0 q, blk4 V c t 1 q, blk5 V c t q]

/-- On a diagonal block the global identity is the local one. -/
theorem eye_diag (t : Fin cfg1.N) (h : t.val / 4 = t.val % 4) (p q : Fin 1024) :
    Cert.Spec.eye (gi t p) (gj t q) = if p = q then one else zero := by
  unfold Cert.Spec.eye
  by_cases hpq : p = q
  · subst hpq; rw [if_pos rfl, if_pos (Fin.ext (by show 1024 * (t.val / 4) + p.val = 1024 * (t.val % 4) + p.val; rw [h]))]
  · rw [if_neg hpq, if_neg]
    intro he
    have := congrArg Fin.val he
    have e : 1024 * (t.val / 4) + p.val = 1024 * (t.val % 4) + q.val := this
    exact hpq (Fin.ext (by omega))

/-- Off the diagonal blocks no entry is on the diagonal. -/
theorem ne_off (t : Fin cfg1.N) (h : ¬ t.val / 4 = t.val % 4) (p q : Fin 1024) : gi t p ≠ gj t q := by
  intro he
  have e : 1024 * (t.val / 4) + p.val = 1024 * (t.val % 4) + q.val := congrArg Fin.val he
  have := p.isLt; have := q.isLt
  omega

/-! ## What each point writes back -/

theorem flushed_eq (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  funext y
  obtain ⟨p, q, rfl⟩ : ∃ (p q : Fin 1024), y = ix2 p q := ⟨y 0, y 1, eq_ix2 y⟩
  show outAt1 V c t (ix2 p q) = G1 V c (((cfg1.win 6).blk t).view.emb (ix2 p q))
  rw [emb6 t p q]
  show _ = (gScale V c (gi t p) * (Cert.Spec.sym (V c main_arg0) (gi t p) (gj t q) + Cert.Spec.eye (gi t p) (gj t q))) * gScale V c (gj t q)
  unfold Cert.Spec.sym
  by_cases h : t.val / 4 = t.val % 4
  · rw [outAt1_D V c t h, out_D]
    refine (pay3_apply (iblk1 V c 0 t) (iblk1 V c 1 t) (iblk1 V c 2 t) (iblk1 V c 3 t) (iblk1 V c 4 t) (iblk1 V c 5 t) p q).trans ?_
    rw [scale_row, scale_col, blk0, blk1, eye_diag t h p q]
  · rw [outAt1_O V c t h, out_O]
    refine (pay4_apply (iblk1 V c 0 t) (iblk1 V c 1 t) (iblk1 V c 2 t) (iblk1 V c 3 t) (iblk1 V c 4 t) (iblk1 V c 5 t) p q).trans ?_
    rw [scale_row, scale_col, blk0, blk1, Cert.Spec.add_eye_of_ne _ (ne_off t h p q)]

/-! ## The blocks tile the array -/

theorem mem_blk6 (t : Fin cfg1.N) (i : S4096x4096.Idx) :
    i ∈ ((cfg1.win 6).blk t).view.set ↔ ∀ a : Fin 2, win1_6.index t a * S1024x1024.size a ≤ (i a).val ∧ (i a).val < win1_6.index t a * S1024x1024.size a + S1024x1024.size a := by
  show i ∈ ((View.whole main_v1).slice (win1_6.rect t)).set ↔ _
  rw [View.set_slice_whole, Rect.mem_set_unit]
  exact Iff.rfl

theorem cover6 (i : S4096x4096.Idx) : ∃ t : Fin cfg1.N, (cfg1.win 6).flush t = true ∧ i ∈ ((cfg1.win 6).blk t).view.set := by
  have h0 : (i 0).val < 4096 := (i 0).isLt
  have h1 : (i 1).val < 4096 := (i 1).isLt
  obtain ⟨t, ht⟩ : ∃ t : Fin cfg1.N, t.val = 4 * ((i 0).val / 1024) + (i 1).val / 1024 :=
    ⟨⟨4 * ((i 0).val / 1024) + (i 1).val / 1024, by rw [show cfg1.N = 16 from N_1]; omega⟩, rfl⟩
  obtain ⟨e0, e1⟩ := idx1_6 t
  refine ⟨t, flush1_6 t, ?_⟩
  rw [mem_blk6]
  intro a
  match a with
  | ⟨0, _⟩ => show win1_6.index t (0 : Fin 2) * 1024 ≤ (i 0).val ∧ (i 0).val < win1_6.index t (0 : Fin 2) * 1024 + 1024; rw [e0, ht]; omega
  | ⟨1, _⟩ => show win1_6.index t (1 : Fin 2) * 1024 ≤ (i 1).val ∧ (i 1).val < win1_6.index t (1 : Fin 2) * 1024 + 1024; rw [e1, ht]; omega

/-! ## The array after the region -/

theorem final6 : (dat1 (F := Ideal) V c).arrAt 6 cfg1.N = G1 V c :=
  (dat1 (F := Ideal) V c).arrAt_eq_of_cover 6 (G1 V c) (fun t _ => flushed_eq V c t) (cover6)

/-- Entry (i, j) of the output array after the region. -/
theorem out_final (i j : Fin 4096) :
    (dat1 (F := Ideal) V c).arrAt 6 cfg1.N (ix2 i j)
      = (Cert.Spec.guard (Cert.Spec.half * ((rows1 V c (ix3 (0 : Fin 2) (0 : Fin 1) i) + rows1 V c (ix3 (1 : Fin 2) (0 : Fin 1) i)) + cols1 V c (ix2 (0 : Fin 1) i)) + Cert.Spec.one)
          * (Cert.Spec.sym (V c main_arg0) i j + Cert.Spec.eye i j))
        * Cert.Spec.guard (Cert.Spec.half * ((rows1 V c (ix3 (0 : Fin 2) (0 : Fin 1) j) + rows1 V c (ix3 (1 : Fin 2) (0 : Fin 1) j)) + cols1 V c (ix2 (0 : Fin 1) j)) + Cert.Spec.one) :=
  (congrFun (final6 V c) (ix2 i j)).trans rfl

end Cert.KernelIdeal.Hand.R1

end
-- ==== Proof.KValue.lean ====
/-
  The kernel's result, on the extended reals, is the normalised matrix `Cert.Spec.G` of the argument.

  The second call's output array holds, at (i, j), the guarded inverse square roots of
  `½ · ((R[0,0,i] + R[1,0,i]) + C[0,i]) + 1` at `i` and at `j` around `½ (A[i,j] + A[j,i]) + [i = j]`, where `R` and `C`
  are the arrays the first call left: `R[h,0,i]` the sum of the h-th half of row `i` of `A` and `C[0,j]` the sum of
  column `j`. The two half-row sums add up to the row sum, so the scale's argument is the degree `Cert.Spec.deg A i`.
-/
import proofs.«107320_g2000603544188606_pallasbulk_177_7_alg».proof.Proof.KI.Run
import proofs.«107320_g2000603544188606_pallasbulk_177_7_alg».proof.Proof.KI.Region0Value
import proofs.«107320_g2000603544188606_pallasbulk_177_7_alg».proof.Proof.KI.Region1Value
import proofs.«107320_g2000603544188606_pallasbulk_177_7_alg».proof.Proof.Spec

noncomputable section

namespace Cert.KernelIdeal.KValue

open Cert.KernelIdeal Cert.KernelIdeal.Gen Cert.KernelIdeal.Hand Cert.KernelIdeal.Hand.R1
open Idealize.ShloMosaic Idealize.ShloMosaic.TcCoe Idealize.SL.Sem Idealize.ShloMosaic.ValueIdx

variable (m : (ℓ : Loc nD τ sig) → Buf (Elt Ideal) ℓ) (ρ : Dev nD → PrngReg)

/-- The second call is entered with the matrix as launched, -/
theorem entry_arg (c : Dev nD) : V1 m ρ c main_arg0 = m ((c : Thread nD τ).loc main_arg0) :=
  (W1_arr m ρ c 0).trans ((adj_kept0 (V0 m ρ) c).trans rfl)
/-- the half-row sums -/
theorem entry_rows (c : Dev nD) : V1 m ρ c main_v0_0 = (dat0 (V0 m ρ) c).arrAt 1 cfg0.N := W1_arr m ρ c 1
/-- and the column sums the first call left. -/
theorem entry_cols (c : Dev nD) : V1 m ρ c main_v0_1 = (dat0 (V0 m ρ) c).arrAt 2 cfg0.N := W1_arr m ρ c 2

/-- The scale's argument at `i`, from the first call's arrays, is the degree of `i`. -/
theorem deg_eq (c : Dev nD) (i : Fin 4096) :
    Cert.Spec.half * ((rows1 (V1 m ρ) c (ix3 (0 : Fin 2) (0 : Fin 1) i) + rows1 (V1 m ρ) c (ix3 (1 : Fin 2) (0 : Fin 1) i))
        + cols1 (V1 m ρ) c (ix2 (0 : Fin 1) i)) + Cert.Spec.one
      = Cert.Spec.deg (m ((c : Thread nD τ).loc main_arg0)) i := by
  have hr : rows1 (V1 m ρ) c = (dat0 (V0 m ρ) c).arrAt 1 cfg0.N := entry_rows m ρ c
  have hc : cols1 (V1 m ρ) c = (dat0 (V0 m ρ) c).arrAt 2 cfg0.N := entry_cols m ρ c
  rw [hr, hc, rows_final, rows_final, cols_final, Cert.Spec.rowHalf_add]
  rfl

/-- The result buffer after the run is the normalised matrix of the argument. -/
theorem result_eq (c : Dev nD) :
    W2 m ρ c (Proc.devRef .tc main_v1) = Cert.Spec.G (m ((c : Thread nD τ).loc main_arg0)) := by
  rw [W2_out]
  funext x
  obtain ⟨i, j, rfl⟩ : ∃ (i j : Fin 4096), x = ix2 i j := ⟨x 0, x 1, eq_ix2 x⟩
  rw [out_final (V1 m ρ) c i j, deg_eq m ρ c i, deg_eq m ρ c j, entry_arg, Cert.Spec.G_ix2]
  rfl

/-- THE KERNEL'S VALUE RUN: every weakly fair execution terminates with the result at the normalised matrix of the
    argument and the argument as launched. -/
theorem run : θ_run (defs (F := Ideal)) (onTc (τ := τ) (main (F := Ideal))) ⟨m, fun _ => 0, ρ⟩ (fun r => ∀ c : Dev nD,
      r.2.mem ((c.tc : Thread nD τ).loc main_v1) = Cert.Spec.G (m ((c.tc : Thread nD τ).loc main_arg0))
      ∧ r.2.mem ((c.tc : Thread nD τ).loc main_arg0) = m ((c.tc : Thread nD τ).loc main_arg0)) :=
  (θ_run defs _ _).mono (fun r h c =>
    ⟨(h c _ (mem_uc main_v1 (by decide))).trans (result_eq m ρ c),
     (h c _ (mem_uc main_arg0 (by decide))).trans (W2_main_arg0 m ρ c)⟩) (run_all m ρ)

end Cert.KernelIdeal.KValue

end
-- ==== Proof.RefScale.lean ====
/-
  The scaling body of the reference, read at one element of a block, on the extended reals.

  At grid position (bi, bj) the body holds a 256 × 1024 block of the symmetrised matrix, the 256 row scales of its rows
  and the 1024 column scales of its columns. Entry (p, q) of what it stores is
      rowscale p · (block (p, q) + [256·bi + p = 1024·bj + q]) · colscale q,
  the bracket being the identity's entry: the body compares the global row number with the global column number as
  32-bit words, and both numbers are below 2³², so the words are equal exactly when the numbers are.
-/
import proofs.«107320_g2000603544188606_pallasbulk_177_7_alg».proof.Proof.Gen.ReferenceIdeal.Skeleton
import proofs.«107320_g2000603544188606_pallasbulk_177_7_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen
open Idealize.ShloMosaic Idealize.ShloMosaic.ValueIdx

/-- Two 32-bit words built from numbers below 2³² are equal exactly when the numbers are. -/
theorem ofNat32_inj {x y : ℕ} (hx : x < 2 ^ 32) (hy : y < 2 ^ 32) : BitVec.ofNat 32 x = BitVec.ofNat 32 y ↔ x = y := by
  constructor
  · intro h
    have := congrArg BitVec.toNat h
    rw [BitVec.toNat_ofNat, BitVec.toNat_ofNat, Nat.mod_eq_of_lt hx, Nat.mod_eq_of_lt hy] at this
    exact this
  · intro h; rw [h]

/-- The identity's entry as the body computes it: a select on the equality of the two position words. -/
theorem eye_word (a b c d : ℕ) (h1 : a + c * 256 < 2 ^ 32) (h2 : b + d * 1024 < 2 ^ 32) (x y : EReal) :
    Scalar.select (IntOp.cmpi .eq (IntOp.addi (BitVec.ofNat 32 a) (Scalar.muli (BitVec.ofNat 32 c) 256#32))
        (IntOp.addi (BitVec.ofNat 32 b) (Scalar.muli (BitVec.ofNat 32 d) 1024#32))) x y
      = if a + c * 256 = b + d * 1024 then x else y := by
  have e1 : IntOp.addi (BitVec.ofNat 32 a) (Scalar.muli (BitVec.ofNat 32 c) 256#32) = BitVec.ofNat 32 (a + c * 256) := by
    show BitVec.ofNat 32 a + BitVec.ofNat 32 c * BitVec.ofNat 32 256 = _
    rw [← BitVec.ofNat_mul, ← BitVec.ofNat_add]
  have e2 : IntOp.addi (BitVec.ofNat 32 b) (Scalar.muli (BitVec.ofNat 32 d) 1024#32) = BitVec.ofNat 32 (b + d * 1024) := by
    show BitVec.ofNat 32 b + BitVec.ofNat 32 d * BitVec.ofNat 32 1024 = _
    rw [← BitVec.ofNat_mul, ← BitVec.ofNat_add]
  rw [e1, e2]
  by_cases h : a + c * 256 = b + d * 1024
  · rw [if_pos h, h]
    show (if BitVec.ofBool (BitVec.ofNat 32 (b + d * 1024) == BitVec.ofNat 32 (b + d * 1024)) = 1 then x else y) = x
    rw [beq_self_eq_true]; rfl
  · rw [if_neg h]
    have hne : ¬BitVec.ofNat 32 (a + c * 256) = BitVec.ofNat 32 (b + d * 1024) := fun e => h ((ofNat32_inj h1 h2).mp e)
    show (if BitVec.ofBool (BitVec.ofNat 32 (a + c * 256) == BitVec.ofNat 32 (b + d * 1024)) = 1 then x else y) = y
    rw [beq_eq_false_iff_ne.mpr hne]; rfl

/-- A column of row scales spread over the block's columns: entry (p, q) is the scale of row p. -/
theorem rowscale_apply (v : FVec Ideal S256x1 .f32) (p : Fin 256) (q : Fin 1024) :
    broadcastTo S256x1024 v broadcasts_S256x1_S256x1024 (ix2 p q) = v (ix2 p (0 : Fin 1)) := by
  refine broadcastTo_apply v broadcasts_S256x1_S256x1024 (ix2 p q) (ix2 p (0 : Fin 1)) fun a => ?_
  match a with
  | ⟨0, _⟩ => rfl
  | ⟨1, _⟩ => rfl

/-- A row of column scales spread over the block's rows: entry (p, q) is the scale of column q. -/
theorem colscale_apply (v : FVec Ideal S1x1024 .f32) (p : Fin 256) (q : Fin 1024) :
    broadcastTo S256x1024 v broadcasts_S1x1024_S256x1024 (ix2 p q) = v (ix2 (0 : Fin 1) q) := by
  refine broadcastTo_apply v broadcasts_S1x1024_S256x1024 (ix2 p q) (ix2 (0 : Fin 1) q) fun a => ?_
  match a with
  | ⟨0, _⟩ => rfl
  | ⟨1, _⟩ => rfl

/-- The scaling body at entry (p, q) of the block at grid position `i`. -/
theorem scale_apply (i : grid1.Coords) (x0 : Vec Ideal S256x1024 .f32) (x1 : Vec Ideal S256x1 .f32)
    (x2 : Vec Ideal S1x1024 .f32) (p : Fin 256) (q : Fin 1024) :
    k1_pay1 (F := Ideal) i x0 x1 x2 (ix2 p q)
      = (x1 (ix2 p (0 : Fin 1)) * (x0 (ix2 p q)
          + (if p.val + (i 0).val * 256 = q.val + (i 1).val * 1024 then Cert.Spec.one else Cert.Spec.zero)))
        * x2 (ix2 (0 : Fin 1) q) := by
  have hi0 : (i 0).val < 16 := (i 0).isLt
  have hi1 : (i 1).val < 4 := (i 1).isLt
  have hp : p.val < 256 := p.isLt
  have hq : q.val < 1024 := q.isLt
  unfold k1_pay1
  dsimp only
  rw [mulf_apply, mulf_apply, addf_apply, shapeCast_self, shapeCast_self, shapeCast_self]
  refine congrArg₂ (· * ·) (congrArg₂ (· * ·) (rowscale_apply x1 p q) (congrArg (x0 (ix2 p q) + ·) ?_)) (colscale_apply x2 p q)
  rw [select_apply]
  show Scalar.select (IntOp.cmpi .eq (IntOp.addi (iota .tc S256x1024 32 [0] iota_S256x1024_d0_w32 (ix2 p q)) _)
      (IntOp.addi (iota .tc S256x1024 32 [1] iota_S256x1024_d1_w32 (ix2 p q)) _)) _ _ = _
  rw [iota_single_apply, iota_single_apply]
  exact eye_word p.val q.val (i 0).val (i 1).val (by omega) (by omega) _ _

end Cert.ReferenceIdeal.RefValue

end
-- ==== Proof.RefOut.lean ====
/-
  The scaling region of the reference as one function of the arrays it reads.

  The region's grid is 16 × 4; at point (bi, bj) it reads block (bi, bj) of the symmetrised matrix (256 × 1024), rows
  256·bi … of the column of row scales and columns 1024·bj … of the row of column scales, and writes block (bi, bj) of
  the result. Entry (I, J) of the result array is therefore
      rowscale I · (matrix (I, J) + [I = J]) · colscale J
  — the body's "global row = global column" test is the identity's entry because block (bi, bj) starts at row 256·bi
  and column 1024·bj. The 64 blocks tile the 4096 × 4096 result, so the array after the region is that function.
-/
import proofs.«107320_g2000603544188606_pallasbulk_177_7_alg».proof.Proof.RefFrame
import proofs.«107320_g2000603544188606_pallasbulk_177_7_alg».proof.Proof.RefScale

set_option maxRecDepth 16384

noncomputable section

namespace Cert.ReferenceIdeal.RefValue

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)

/-- The result of the scaling region from the matrix `B`, the column `r` of row scales and the row `cv` of column scales. -/
def scaled (B : S4096x4096.Idx → EReal) (r : S4096x1.Idx → EReal) (cv : S1x4096.Idx → EReal) : S4096x4096.Idx → EReal :=
  fun x => (r (ix2 (x 0) (0 : Fin 1)) * (B x + Cert.Spec.eye (x 0) (x 1))) * cv (ix2 (0 : Fin 1) (x 1))

theorem hz1 : (![0, 0] : Fin 2 → Nat) = fun _ => 0 := funext fun a => by fin_cases a <;> rfl

/-- One entry of one block: if entry (p, q) of the three loaded blocks is entry `e` of the matrix, `e1` of the row scales and
    `e2` of the column scales, and `e` is row 256·bi + p, column 1024·bj + q, the body's value there is the scaled entry. -/
theorem point_eq (i : grid1.Coords) (x0 : Vec Ideal S256x1024 .f32) (x1 : Vec Ideal S256x1 .f32) (x2 : Vec Ideal S1x1024 .f32)
    (B : S4096x4096.Idx → EReal) (r : S4096x1.Idx → EReal) (cv : S1x4096.Idx → EReal)
    (p : Fin 256) (q : Fin 1024) (e : S4096x4096.Idx) (e1 : S4096x1.Idx) (e2 : S1x4096.Idx) (I J : Fin 4096)
    (hI : I.val = (i 0).val * 256 + p.val) (hJ : J.val = (i 1).val * 1024 + q.val)
    (h0 : x0 (ix2 p q) = B e) (h1 : x1 (ix2 p (0 : Fin 1)) = r e1) (h2 : x2 (ix2 (0 : Fin 1) q) = cv e2) :
    k1_pay1 (F := Ideal) i x0 x1 x2 (ix2 p q) = (r e1 * (B e + Cert.Spec.eye I J)) * cv e2 := by
  rw [scale_apply, h0, h1, h2]
  unfold Cert.Spec.eye
  have hiff : (p.val + (i 0).val * 256 = q.val + (i 1).val * 1024) ↔ (I = J) := by
    rw [Fin.ext_iff, hI, hJ]; omega
  rw [if_congr hiff rfl rfl]

/-- The printed index maps over the grid: every window's block index is the grid position on the axes it follows and zero
    on the others. -/
theorem idx_facts1 : ∀ t : Fin cfg1.N,
    win1_0.index t (0 : Fin 2) = (grid1.coords t 0).val ∧ win1_0.index t (1 : Fin 2) = (grid1.coords t 1).val
    ∧ win1_1.index t (0 : Fin 2) = (grid1.coords t 0).val ∧ win1_1.index t (1 : Fin 2) = 0
    ∧ win1_2.index t (0 : Fin 2) = 0 ∧ win1_2.index t (1 : Fin 2) = (grid1.coords t 1).val
    ∧ win1_3.index t (0 : Fin 2) = (grid1.coords t 0).val ∧ win1_3.index t (1 : Fin 2) = (grid1.coords t 1).val :=
  (by decide +kernel : ∀ t : Fin grid1.N, _)

/-- Every block of the result is some grid point's. -/
theorem idx_onto1 : ∀ (q0 : Fin 16) (q1 : Fin 4), ∃ t : Fin cfg1.N, win1_3.index t = ![q0.val, q1.val] :=
  (by decide +kernel : ∀ (q0 : Fin 16) (q1 : Fin 4), ∃ t : Fin grid1.N, win1_3.index t = ![q0.val, q1.val])

variable (V : (c : Dev nD) → (b : Ref sig .tc) → Buf (Elt Ideal) ((c : Thread nD τ).loc b))

/-- What grid point `t` writes back is block `t` of the scaled matrix of the arrays as the region finds them. -/
theorem flushed3_eq (c : Dev nD) (t : Fin cfg1.N) :
    (dat1 V c).flushed 3 t
      = ((cfg1.win 3).blk t).view.read (Elt Ideal) (scaled (V c main_v3) (V c main_v4) (V c main_v5)) := by
  show (cfg1.win 3).cut (grid1.coords t) ((dat1 V c).after 3 t) = _
  rw [after1_3]
  unfold out1_3
  rw [View.canon_unit_zero hz1]
  simp only [View.ld_unit_zero (S := S256x1024) hz1, View.ld_unit_zero (S := S256x1) hz1, View.ld_unit_zero (S := S1x1024) hz1]
  obtain ⟨f00, f01, f10, f11, f20, f21, f30, f31⟩ := idx_facts1 t
  funext j
  obtain ⟨p, q, rfl⟩ : ∃ (p : Fin 256) (q : Fin 1024), j = ix2 p q := ⟨j 0, j 1, eq_ix2 j⟩
  show k1_pay1 (F := Ideal) (grid1.coords t) (iblk1 V c 0 t) (iblk1 V c 1 t) (iblk1 V c 2 t) (ix2 p q)
    = scaled (V c main_v3) (V c main_v4) (V c main_v5) (((cfg1.win 3).blk t).view.emb (ix2 p q))
  have hp : p.val < 256 := p.isLt
  have hq : q.val < 1024 := q.isLt
  refine point_eq (grid1.coords t) (iblk1 V c 0 t) (iblk1 V c 1 t) (iblk1 V c 2 t) (V c main_v3) (V c main_v4) (V c main_v5)
    p q (((cfg1.win 3).blk t).view.emb (ix2 p q)) _ _ ((((cfg1.win 3).blk t).view.emb (ix2 p q)) 0) ((((cfg1.win 3).blk t).view.emb (ix2 p q)) 1) ?_ ?_ ?_ ?_ ?_
  · show win1_3.index t (0 : Fin 2) * 256 + 1 * p.val = _
    rw [f30]; omega
  · show win1_3.index t (1 : Fin 2) * 1024 + 1 * q.val = _
    rw [f31]; omega
  · show V c main_v3 (((cfg1.win 0).blk t).view.emb (ix2 p q)) = V c main_v3 (((cfg1.win 3).blk t).view.emb (ix2 p q))
    refine congrArg (V c main_v3) (funext fun a => Fin.ext ?_)
    match a with
    | ⟨0, _⟩ => show win1_0.index t (0 : Fin 2) * 256 + 1 * p.val = win1_3.index t (0 : Fin 2) * 256 + 1 * p.val; rw [f00, f30]
    | ⟨1, _⟩ => show win1_0.index t (1 : Fin 2) * 1024 + 1 * q.val = win1_3.index t (1 : Fin 2) * 1024 + 1 * q.val; rw [f01, f31]
  · show V c main_v4 (((cfg1.win 1).blk t).view.emb (ix2 p (0 : Fin 1))) = V c main_v4 (ix2 ((((cfg1.win 3).blk t).view.emb (ix2 p q)) 0) (0 : Fin 1))
    refine congrArg (V c main_v4) (funext fun a => Fin.ext ?_)
    match a with
    | ⟨0, _⟩ => show win1_1.index t (0 : Fin 2) * 256 + 1 * p.val = win1_3.index t (0 : Fin 2) * 256 + 1 * p.val; rw [f10, f30]
    | ⟨1, _⟩ => show win1_1.index t (1 : Fin 2) * 1 + 1 * 0 = 0; rw [f11]
  · show V c main_v5 (((cfg1.win 2).blk t).view.emb (ix2 (0 : Fin 1) q)) = V c main_v5 (ix2 (0 : Fin 1) ((((cfg1.win 3).blk t).view.emb (ix2 p q)) 1))
    refine congrArg (V c main_v5) (funext fun a => Fin.ext ?_)
    match a with
    | ⟨0, _⟩ => show win1_2.index t (0 : Fin 2) * 1 + 1 * 0 = 0; rw [f20]
    | ⟨1, _⟩ => show win1_2.index t (1 : Fin 2) * 1024 + 1 * q.val = win1_3.index t (1 : Fin 2) * 1024 + 1 * q.val; rw [f21, f31]

/-- An index of the result array is in point `t`'s block iff each coordinate is in the block's range on its axis. -/
theorem mem_blk3 (t : Fin cfg1.N) (i : S4096x4096.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v6).slice (win1_3.rect t)).set ↔ _
  rw [View.set_slice_whole, Rect.mem_set_unit]
  exact Iff.rfl

/-- The blocks tile the result: entry (I, J) lies in the block of grid position (I / 256, J / 1024). -/
theorem cover3 (i : S4096x4096.Idx) : ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := idx_onto1 ⟨(i 0).val / 256, by omega⟩ ⟨(i 1).val / 1024, by omega⟩
  have q0 : win1_3.index t (0 : Fin 2) = (i 0).val / 256 := congrFun ht 0
  have q1 : win1_3.index t (1 : Fin 2) = (i 1).val / 1024 := congrFun ht 1
  refine ⟨t, flush1_3 t, ?_⟩
  rw [mem_blk3]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1024 ≤ (i 1).val ∧ (i 1).val < win1_3.index t (1 : Fin 2) * 1024 + 1024; omega

/-- The result array after the region is the scaled matrix of the arrays the region found. -/
theorem final3 (c : Dev nD) :
    (dat1 V c).arrAt 3 cfg1.N = scaled (V c main_v3) (V c main_v4) (V c main_v5) :=
  (dat1 V c).arrAt_eq_of_cover 3 (scaled (V c main_v3) (V c main_v4) (V c main_v5)) (fun t _ => flushed3_eq V c t) cover3

end Cert.ReferenceIdeal.RefValue

end
-- ==== Proof.RefHost.lean ====
/-
  The reference's host operations, read at an index.

  Before the first kernel region the host forms the symmetrised matrix ½·(A + Aᵀ): a transpose, a sum, the constant one
  half spread over the matrix, a product. Entry (i, j) is ½·(A[i,j] + A[j,i]). Between the two regions the host reshapes
  the 4096 × 1 column of scales into a 1 × 4096 row: entry (0, J) of the row is entry (J, 0) of the column. Neither
  kernel region writes the symmetrised matrix, and the reshape writes only the row, so the second region finds the
  symmetrised matrix as the host left it and the column of scales as the first region left it.
-/
import proofs.«107320_g2000603544188606_pallasbulk_177_7_alg».proof.Proof.RefFrame
import proofs.«107320_g2000603544188606_pallasbulk_177_7_alg».proof.Proof.Spec
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)

/-- The host's symmetrised matrix as its four operations build it. -/
def hostSym (A : FVec Ideal S4096x4096 .f32) : FVec Ideal S4096x4096 .f32 :=
  mulf (broadcastInDim S4096x4096 ![] bcast_S_S4096x4096 (constant (F := Ideal) S_ .f32 0x3F000000#32))
    (addf A (transpose S4096x4096 [1, 0] A transposes_S4096x4096_S4096x4096_1_0))

/-- Entry (i, j) of it is one half of A[i,j] + A[j,i]. -/
theorem hostSym_apply (A : FVec Ideal S4096x4096 .f32) (i j : Fin 4096) :
    hostSym A (ix2 i j) = Cert.Spec.sym A i j := by
  unfold hostSym Cert.Spec.sym
  rw [mulf_apply, addf_apply]
  refine congrArg₂ (· * ·) ?_ (congrArg (A (ix2 i j) + ·) ?_)
  · exact (broadcastInDim_apply ![] bcast_S_S4096x4096 (constant (F := Ideal) S_ .f32 0x3F000000#32) (ix2 i j) ix0
      (fun a => a.elim0)).trans rfl
  · refine transpose_apply [1, 0] A transposes_S4096x4096_S4096x4096_1_0 (ix2 i j) (ix2 j i) fun b => ?_
    match b with
    | ⟨0, _⟩ => rfl
    | ⟨1, _⟩ => rfl

/-- The column of scales reshaped to a row: entry (0, J) of the row is entry (J, 0) of the column. -/
theorem row_of_column_apply (r : FVec Ideal S4096x1 .f32) (J : Fin 4096) :
    shapeCast S1x4096 r shapeCasts_S4096x1_S1x4096 (ix2 (0 : Fin 1) J) = r (ix2 J (0 : Fin 1)) := by
  refine shapeCast_apply r shapeCasts_S4096x1_S1x4096 (ix2 (0 : Fin 1) J) (ix2 J (0 : Fin 1)) ?_
  rw [Shape.rowMajor_val_two, Shape.rowMajor_val_two]
  show J.val * 1 + 0 = 0 * 4096 + J.val
  omega

variable (m : (ℓ : Loc nD τ sig) → Buf (Elt Ideal) ℓ) (ρ : Dev nD → PrngReg)

/-- The first region finds the symmetrised matrix of the argument. -/
theorem V1_main_v3 (c : Dev nD) :
    (V1 m ρ c main_v3 : S4096x4096.Idx → EReal) = hostSym (m ((c : Thread nD τ).loc main_arg0)) := by
  show StableHlo.after hostOps0 (W0 m ρ c) (Proc.devRef .tc main_v3) = _
  after_results
  rfl

/-- The first region does not write the symmetrised matrix (it only reads it through an input window). -/
theorem W2_main_v3 (c : Dev nD) : W2 m ρ c (Proc.devRef .tc main_v3) = V1 m ρ c main_v3 :=
  (W2_arr m ρ c 0).trans (((dat0 (V1 m ρ) c).arrAt_in 0 rfl _).trans (A_eq0 (V1 m ρ) c 0))

/-- The column of scales as the first region leaves it. -/
theorem W2_main_v4 (c : Dev nD) : W2 m ρ c (Proc.devRef .tc main_v4) = (dat0 (V1 m ρ) c).arrAt 1 cfg0.N :=
  W2_arr m ρ c 1

/-- The second region finds the symmetrised matrix, -/
theorem V3_main_v3 (c : Dev nD) : (V3 m ρ c main_v3 : S4096x4096.Idx → EReal) = V1 m ρ c main_v3 := by
  show StableHlo.after hostOps1 (W2 m ρ c) (Proc.devRef .tc main_v3) = _
  after_results
  exact W2_main_v3 m ρ c

/-- the column of scales, -/
theorem V3_main_v4 (c : Dev nD) : (V3 m ρ c main_v4 : S4096x1.Idx → EReal) = (dat0 (V1 m ρ) c).arrAt 1 cfg0.N := by
  show StableHlo.after hostOps1 (W2 m ρ c) (Proc.devRef .tc main_v4) = _
  after_results
  exact W2_main_v4 m ρ c

/-- and its reshape to a row. -/
theorem V3_main_v5 (c : Dev nD) :
    (V3 m ρ c main_v5 : S1x4096.Idx → EReal)
      = shapeCast S1x4096 ((dat0 (V1 m ρ) c).arrAt 1 cfg0.N : S4096x1.Idx → EReal) shapeCasts_S4096x1_S1x4096 := by
  show StableHlo.after hostOps1 (W2 m ρ c) (Proc.devRef .tc main_v5) = _
  after_results
  rw [W2_main_v4]
  rfl

end Cert.ReferenceIdeal.RefValue

end
-- ==== Proof.RefRead.lean ====
/-
  The result array of the reference, read back through the fold of buffer contents.

  After the last region the result array holds what the scaling region wrote: the scaled matrix of the symmetrised
  matrix, the column of scales and its reshape to a row. The symmetrised matrix has entries ½·(A[i,j] + A[j,i]); if the
  column of scales holds at row i the guarded inverse square root of (row sum of the symmetrised matrix at i) + 1, then,
  one half passing through the sum, that argument is the degree ½·(Σ_k A[i,k] + Σ_k A[k,i]) + 1, and entry (i, j) of
  the result is (g i · (½·(A[i,j] + A[j,i]) + [i = j])) · g j: the specification.
-/
import proofs.«107320_g2000603544188606_pallasbulk_177_7_alg».proof.Proof.RefOut
import proofs.«107320_g2000603544188606_pallasbulk_177_7_alg».proof.Proof.RefHost

set_option maxRecDepth 16384

noncomputable section

namespace Cert.ReferenceIdeal.RefValue

open Cert.ReferenceIdeal Cert.ReferenceIdeal.Gen Cert.ReferenceIdeal.GenP
open Idealize.ShloMosaic Idealize.ShloMosaic.TcCoe Idealize.ShloMosaic.ValueIdx Idealize.SL.Sem
open Idealize.ShloMosaic.Pipeline (Dat)
open scoped BigOperators

/-- The pure step: the scaled matrix of the symmetrised matrix and a column `R` of scales (with its reshape to a row) is
    the specification, once `R` holds the guarded inverse square root of the symmetrised row sum plus one. -/
theorem scaled_eq_G (A : FVec Ideal S4096x4096 .f32) (R : FVec Ideal S4096x1 .f32)
    (hR : ∀ i : Fin 4096, R (ix2 i (0 : Fin 1)) = Cert.Spec.guard (Cert.Spec.rowSum (hostSym A) i + Cert.Spec.one)) :
    scaled (hostSym A) R (shapeCast S1x4096 R shapeCasts_S4096x1_S1x4096) = Cert.Spec.G A := by
  have hdeg : ∀ i : Fin 4096, R (ix2 i (0 : Fin 1)) = Cert.Spec.guard (Cert.Spec.deg A i) := fun i => by
    rw [hR i]
    refine congrArg (fun s => Cert.Spec.guard (s + Cert.Spec.one)) ?_
    rw [← Cert.Spec.rowSum_sym]
    unfold Cert.Spec.rowSum
    exact Finset.sum_congr rfl fun k _ => hostSym_apply A i k
  funext x
  obtain ⟨I, J, rfl⟩ : ∃ (I J : Fin 4096), x = ix2 I J := ⟨x 0, x 1, eq_ix2 x⟩
  show (R (ix2 I (0 : Fin 1)) * (hostSym A (ix2 I J) + Cert.Spec.eye I J)) * shapeCast S1x4096 R shapeCasts_S4096x1_S1x4096 (ix2 (0 : Fin 1) J)
    = Cert.Spec.entry A I J
  rw [row_of_column_apply, hostSym_apply, hdeg I, hdeg J]
  rfl

variable (m : (ℓ : Loc nD τ sig) → Buf (Elt Ideal) ℓ) (ρ : Dev nD → PrngReg)

/-- The result array at the end of the run is the specification of the argument, given the value of the column of scales
    the first region leaves. -/
theorem W4_main_v6_of (c : Dev nD)
    (hR : ∀ i : Fin 4096, (dat0 (V1 m ρ) c).arrAt 1 cfg0.N (ix2 i (0 : Fin 1))
      = Cert.Spec.guard (Cert.Spec.rowSum (V1 m ρ c main_v3) i + Cert.Spec.one)) :
    W4 m ρ c (Proc.devRef .tc main_v6) = Cert.Spec.G (m ((c : Thread nD τ).loc main_arg0)) := by
  refine (W4_arr m ρ c 3).trans ?_
  rw [final3 (V3 m ρ) c, V3_main_v3, V3_main_v4, V3_main_v5, V1_main_v3]
  refine scaled_eq_G (m ((c : Thread nD τ).loc main_arg0)) _ fun i => ?_
  rw [hR i, V1_main_v3]

end Cert.ReferenceIdeal.RefValue

end
-- ==== Proof.RefRun.lean ====
/-
  The reference program's run with every unscoped buffer named at the end.

  The frame certificate of the reference program follows its two kernel regions and the host operations between them
  and records, boundary by boundary, what every buffer of the TensorCore holds (a fold `W0 … W4` from the launch
  memory). Its final statement keeps only the argument array. Here the same run is stated with the whole last stage of
  that fold: after every weakly fair execution, each unscoped buffer `b` of each core `c` holds `W4 m ρ c b`.
  The value of the result array is then a matter of reading `W4` back through the fold, which the later modules do.
-/
import proofs.«107320_g2000603544188606_pallasbulk_177_7_alg».proof.Proof.RefFrame

set_option maxRecDepth 16384

noncomputable section

namespace Cert.ReferenceIdeal.RefValue

open Cert.ReferenceIdeal Cert.ReferenceIdeal.Gen Cert.ReferenceIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- From any memory with zero counters every weakly fair execution of the reference program on the TensorCores
    terminates, and in every final state each unscoped buffer holds the last stage `W4` of the fold of buffer contents
    through the program's segments. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = GenP.W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.ReferenceIdeal.RefValue

end
-- ==== Proof.RefRinvPieces.lean ====
/- What each control case of the reference's first kernel body leaves in its output staging buffer, as the body's
   arithmetic of the input block and of the value the buffer held: the stores found by the run each cover the buffer,
   so the buffer reads back as the last store's payload, and a load between two stores reads the earlier store's. -/
import proofs.«107320_g2000603544188606_pallasbulk_177_7_alg».proof.Proof.RefFrame
import Idealize.ShloMosaic.Lib.Pipeline.Value
import Idealize.ShloMosaic.Lib.Tactic

set_option maxRecDepth 16384

noncomputable section

namespace Cert.ReferenceIdeal.Rinv

open Cert.ReferenceIdeal Cert.ReferenceIdeal.Gen Cert.ReferenceIdeal.GenP
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- First column block of a row: the buffer is cleared, read back, and the block's row sums added. -/
theorem out_A (c : Dev nD) (i : grid0.Coords) (arg2 : Memref sig .tc .vmem S256x1024 .f32) (harg2 : arg2.IsWhole) (arg3 : Memref sig .tc .vmem S256x1 .f32) (harg3 : arg3.IsWhole) (hc0 : cond0_0 i) (hc1 : ¬cond0_1 i)
    (x0 : Vec F S256x1024 .f32) :
    out0_A_1 c i arg2 harg2 arg3 harg3 hc0 hc1 x0 = k0_pay2 (k0_pay1 (F := F)) x0 := by
  unfold out0_A_1
  rw [View.read_writes_eq_canon _ _ _ (cover0_A_1 c i arg2 harg2 arg3 harg3 hc0 hc1 x0)]
  unfold kernelRun0_A
  dsimp only
  sl_unfold_words
  rw [View.canon_cons_unit_zero (S := S256x1) hz, View.readCov_unit_zero (S := S256x1) _ hz]
  simp only [View.readAt_eq_ld, harg2.read_unread, View.ld_unit_zero (S := S256x1024) hz]

/-- A middle column block: the block's row sums added to what the buffer held. -/
theorem out_B (c : Dev nD) (i : grid0.Coords) (arg2 : Memref sig .tc .vmem S256x1024 .f32) (harg2 : arg2.IsWhole) (arg3 : Memref sig .tc .vmem S256x1 .f32) (harg3 : arg3.IsWhole) (hc0 : ¬cond0_0 i) (hc1 : ¬cond0_1 i)
    (x0 : Vec F S256x1024 .f32) (xo1 : Vec F S256x1 .f32) :
    out0_B_1 c i arg2 harg2 arg3 harg3 hc0 hc1 x0 xo1 = k0_pay2 xo1 x0 := by
  unfold out0_B_1
  rw [View.read_writes_eq_canon _ _ _ (cover0_B_1 c i arg2 harg2 arg3 harg3 hc0 hc1 x0 xo1)]
  unfold kernelRun0_B
  dsimp only
  rw [View.canon_unit_zero hz]
  simp only [View.readAt_eq_ld, harg2.read_unread, harg3.read_unread, View.ld_unit_zero (S := S256x1024) hz, View.ld_unit_zero (S := S256x1) hz]

/-- The last column block: the row sums are added as before, the sum read back, one added and the guarded inverse
    square root stored. -/
theorem out_C (c : Dev nD) (i : grid0.Coords) (arg2 : Memref sig .tc .vmem S256x1024 .f32) (harg2 : arg2.IsWhole) (arg3 : Memref sig .tc .vmem S256x1 .f32) (harg3 : arg3.IsWhole) (hc0 : ¬cond0_0 i) (hc1 : cond0_1 i)
    (x0 : Vec F S256x1024 .f32) (xo1 : Vec F S256x1 .f32) :
    out0_C_1 c i arg2 harg2 arg3 harg3 hc0 hc1 x0 xo1 = k0_pay3 (k0_pay2 xo1 x0) := by
  unfold out0_C_1
  rw [View.read_writes_eq_canon _ _ _ (cover0_C_1 c i arg2 harg2 arg3 harg3 hc0 hc1 x0 xo1)]
  unfold kernelRun0_C
  dsimp only
  sl_unfold_words
  rw [View.canon_cons_unit_zero (S := S256x1) hz, View.readCov_unit_zero (S := S256x1) _ hz]
  simp only [View.readAt_eq_ld, harg2.read_unread, harg3.read_unread, View.ld_unit_zero (S := S256x1024) hz, View.ld_unit_zero (S := S256x1) hz]

end Cert.ReferenceIdeal.Rinv

end
-- ==== Proof.RefPay.lean ====
/-
  The arithmetic of the reference's two kernel bodies, read at one element of a block, on the extended reals.

  The first body keeps a running column vector: it is cleared to zero, each column block adds its row sums to it, and at
  the last column block one is added and the guarded inverse square root is taken. The second body scales a block:
  entry (p, q) of the block at grid position (bi, bj) is the row scale at p, times the entry plus the identity's entry
  (one exactly when the global row 256·bi + p equals the global column 1024·bj + q), times the column scale at q.
-/
import proofs.«107320_g2000603544188606_pallasbulk_177_7_alg».proof.Proof.Gen.ReferenceIdeal.Skeleton
import proofs.«107320_g2000603544188606_pallasbulk_177_7_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen
open Idealize.ShloMosaic Idealize.ShloMosaic.ValueIdx
open scoped BigOperators

/-- The cleared accumulator holds the zero literal. -/
theorem pay1_apply (y : S256x1.Idx) : k0_pay1 (F := Ideal) y = Cert.Spec.zero := rfl

/-- A keepdims column: entry (p, 0) of a vector of 256 entries reshaped to 256 × 1 is entry p. -/
theorem column_apply (v : FVec Ideal S256 .f32) (p : Fin 256) :
    shapeCast S256x1 v shapeCasts_S256_S256x1 (ix2 p (0 : Fin 1)) = v (ix1 p) := by
  refine shapeCast_apply v shapeCasts_S256_S256x1 (ix2 p (0 : Fin 1)) (ix1 p) ?_
  rw [Shape.rowMajor_val_one, Shape.rowMajor_val_two]
  show p.val = p.val * 1 + 0
  omega

/-- The row sums of a 256 × 1024 block, entry p: the sum over the block's 1024 columns. -/
theorem rowsum_apply (v : FVec Ideal S256x1024 .f32) (hacc : (0x00000000#32 : BitVec 32) = 0x00000000#32) (p : Fin 256) :
    multiReduction .add [1] S256 v 0x00000000#32 reduces_S256x1024_S256 (.inl rfl) hacc (ix1 p)
      = ∑ q : Fin 1024, v (ix2 p q) := by
  refine (Ideal.multiReduction_add_single v 0x00000000#32 reduces_S256x1024_S256 (.inl rfl) hacc (ix1 p)).trans ?_
  refine Finset.sum_congr rfl fun q _ => congrArg v ?_
  funext a
  match a with
  | ⟨0, _⟩ => rfl
  | ⟨1, _⟩ => rfl

/-- One accumulation step at row p: the running value plus the block's row sum. -/
theorem pay2_apply (v3 : Vec Ideal S256x1 .f32) (v5 : Vec Ideal S256x1024 .f32) (p : Fin 256) :
    k0_pay2 (F := Ideal) v3 v5 (ix2 p (0 : Fin 1)) = v3 (ix2 p (0 : Fin 1)) + ∑ q : Fin 1024, v5 (ix2 p q) := by
  unfold k0_pay2
  rw [addf_apply, shapeCast_self, shapeCast_self]
  refine congrArg (v3 (ix2 p (0 : Fin 1)) + ·) ?_
  exact (column_apply _ p).trans (rowsum_apply v5 rfl p)

/-- The last step at row p: one is added and the guarded inverse square root taken. -/
theorem pay3_apply (v14 : Vec Ideal S256x1 .f32) (p : Fin 256) :
    k0_pay3 (F := Ideal) v14 (ix2 p (0 : Fin 1)) = Cert.Spec.guard (v14 (ix2 p (0 : Fin 1)) + Cert.Spec.one) := by
  unfold k0_pay3
  rw [shapeCast_self]
  rfl

end Cert.ReferenceIdeal.RefValue

end
-- ==== Proof.RefRinv.lean ====
/- What the reference's first kernel leaves in its output array, on the extended reals, as a function of the matrix
   `B` it is entered with: entry (i, 0) is the guarded inverse square root of the sum of row `i` of `B` plus one. A
   row sum is accumulated over the four column blocks of a grid row: after column block k of grid row bi the
   staging buffer holds, at row p, the sum of the first 1024 (k + 1) entries of row 256 bi + p; at the last column
   block one is added and the guarded inverse square root taken, and only then is the buffer written back. -/
import proofs.«107320_g2000603544188606_pallasbulk_177_7_alg».proof.Proof.RefRinvPieces
import proofs.«107320_g2000603544188606_pallasbulk_177_7_alg».proof.Proof.RefPay
import proofs.«107320_g2000603544188606_pallasbulk_177_7_alg».proof.Proof.Spec
import Idealize.ShloMosaic.Lib.Pipeline.Value
import Idealize.ShloMosaic.Lib.Tactic

set_option maxRecDepth 16384

noncomputable section

namespace Cert.ReferenceIdeal.Rinv

open Cert.ReferenceIdeal Cert.ReferenceIdeal.Gen Cert.ReferenceIdeal.GenP Cert.ReferenceIdeal.RefValue
open Idealize.ShloMosaic Idealize.ShloMosaic.TcCoe Idealize.SL.Sem Idealize.ShloMosaic.ValueIdx
open Idealize.ShloMosaic.Pipeline (Dat)

/-! ## Partial row sums -/

/-- The sum of the first `n` entries of row `i`. -/
def rowPart (B : Cert.Spec.Mat) (i : Fin 4096) (n : ℕ) : EReal :=
  ∑ k ∈ Finset.range n, if h : k < 4096 then B (ix2 i ⟨k, h⟩) else 0

theorem rowPart_zero (B : Cert.Spec.Mat) (i : Fin 4096) : rowPart B i 0 = 0 := by
  unfold rowPart; rw [Finset.range_zero, Finset.sum_empty]

/-- All 4096 entries: the row sum. -/
theorem rowPart_full (B : Cert.Spec.Mat) (i : Fin 4096) : rowPart B i 4096 = Cert.Spec.rowSum B i := by
  unfold rowPart Cert.Spec.rowSum
  exact (Finset.sum_fin_eq_sum_range (fun k : Fin 4096 => B (ix2 i k))).symm

/-- One more block of 1024 columns. -/
theorem rowPart_add (B : Cert.Spec.Mat) (i : Fin 4096) (a : ℕ) :
    rowPart B i (a + 1024) = rowPart B i a + ∑ q : Fin 1024, if h : a + q.val < 4096 then B (ix2 i ⟨a + q.val, h⟩) else 0 := by
  unfold rowPart
  rw [Finset.sum_range_add]
  exact congrArg (_ + ·) (Finset.sum_range _)

/-! ## The blocks -/

variable (V : (c : Dev nD) → (b : Ref sig .tc) → Buf (Elt Ideal) ((c : Thread nD τ).loc b))

/-- The block indices of the two windows at a point, decided over the grid: the point `t` is column block `t % 4` of
    grid row `t / 4`. -/
theorem idx0 : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

/-- The input block at a point, as a matrix of extended reals. -/
abbrev blk0 (c : Dev nD) (t : Fin cfg0.N) : Vec Ideal S256x1024 .f32 := iblk0 V c 0 t

/-- The input block at point `t`, entry (p, q), is the matrix at row `256 (t / 4) + p`, column `1024 (t % 4) + q`. -/
theorem iblk0_apply (c : Dev nD) (t : Fin cfg0.N) (p : Fin 256) (q : Fin 1024) (I K : Fin 4096)
    (hI : I.val = 256 * (t.val / 4) + p.val) (hK : K.val = 1024 * (t.val % 4) + q.val) :
    blk0 V c t (ix2 p q) = (V c main_v3 : Cert.Spec.Mat) (ix2 I K) := by
  obtain ⟨e0, e1, -⟩ := idx0 t
  unfold blk0 iblk0
  rw [View.read_apply]
  show V c main_v3 _ = V c main_v3 _
  congr 1
  funext a
  apply Fin.ext
  match a with
  | ⟨0, _⟩ => show win0_0.index t (0 : Fin 2) * 256 + 1 * p.val = I.val; rw [e0, hI]; omega
  | ⟨1, _⟩ => show win0_0.index t (1 : Fin 2) * 1024 + 1 * q.val = K.val; rw [e1, hK]; omega

/-- One column block added: the partial row sum grows by the row sum of the input block at the point. -/
theorem rowPart_block (c : Dev nD) (t : Fin cfg0.N) (p : Fin 256) (I : Fin 4096) (hI : I.val = 256 * (t.val / 4) + p.val) :
    rowPart (V c main_v3) I (1024 * (t.val % 4) + 1024)
      = rowPart (V c main_v3) I (1024 * (t.val % 4)) + ∑ q : Fin 1024, blk0 V c t (ix2 p q) := by
  rw [rowPart_add]
  refine congrArg (rowPart (V c main_v3) I (1024 * (t.val % 4)) + ·) (Finset.sum_congr rfl fun q _ => ?_)
  have hlt : 1024 * (t.val % 4) + q.val < 4096 := by have := q.isLt; omega
  rw [dif_pos hlt]
  exact (iblk0_apply V c t p q I ⟨1024 * (t.val % 4) + q.val, hlt⟩ hI rfl).symm

/-! ## The accumulation -/

/-- Before the last column block of a grid row: after point `n` (column block `n % 4 < 3` of grid row `n / 4`) the buffer
    holds, at row `p`, the sum of the first `1024 (n % 4 + 1)` entries of row `256 (n / 4) + p` — by induction on the point. -/
theorem acc_eq (c : Dev nD) : ∀ (n : ℕ) (hn : n < cfg0.N) (h3 : n % 4 ≠ 3) (p : Fin 256) (I : Fin 4096) (hI : I.val = 256 * (n / 4) + p.val),
    (outsAt0 V c n hn : Vec Ideal S256x1 .f32) (ix2 p (0 : Fin 1)) = rowPart (V c main_v3) I (1024 * (n % 4 + 1))
  | n, hn, h3, p, I, hI => by
    have hN : cfg0.N = 64 := N_0
    by_cases h0 : n % 4 = 0
    · rw [outsAt0_A V c ⟨n, hn⟩ h0 h3, out_A]
      refine (pay2_apply _ _ p).trans ?_
      rw [pay1_apply, Cert.Spec.zero_eq, zero_add,
        show 1024 * (n % 4 + 1) = 1024 * ((⟨n, hn⟩ : Fin cfg0.N).val % 4) + 1024 from by dsimp only; omega,
        rowPart_block V c ⟨n, hn⟩ p I hI]
      dsimp only
      rw [h0, Nat.mul_zero, rowPart_zero, zero_add]
    · rw [outsAt0_B V c ⟨n, hn⟩ h0 h3, out_B]
      refine (pay2_apply _ _ p).trans ?_
      dsimp only
      rw [acc_eq c (n - 1) (Nat.lt_of_le_of_lt (Nat.sub_le _ _) hn) (by omega) p I (by rw [hI]; omega),
        show 1024 * (n % 4 + 1) = 1024 * ((⟨n, hn⟩ : Fin cfg0.N).val % 4) + 1024 from by dsimp only; omega,
        rowPart_block V c ⟨n, hn⟩ p I hI]
      dsimp only
      rw [show 1024 * ((n - 1) % 4 + 1) = 1024 * (n % 4) from by omega]
  termination_by n => n
  decreasing_by omega

/-- At the last column block of a grid row the buffer holds, at row `p`, the guarded inverse square root of the whole
    row sum plus one. -/
theorem fin_eq (c : Dev nD) (t : Fin cfg0.N) (h3 : t.val % 4 = 3) (p : Fin 256) (I : Fin 4096) (hI : I.val = 256 * (t.val / 4) + p.val) :
    (outsAt0 V c t.val t.isLt : Vec Ideal S256x1 .f32) (ix2 p (0 : Fin 1))
      = Cert.Spec.guard (Cert.Spec.rowSum (V c main_v3) I + Cert.Spec.one) := by
  have hN : cfg0.N = 64 := N_0
  rw [outsAt0_C V c t (by omega) h3, out_C]
  refine (pay3_apply _ p).trans ?_
  rw [pay2_apply]
  rw [acc_eq V c (t.val - 1) (Nat.lt_of_le_of_lt (Nat.sub_le _ _) t.isLt) (by omega) p I (by rw [hI]; omega),
    ← rowPart_full, show 4096 = 1024 * (t.val % 4) + 1024 from by omega, rowPart_block V c t p I hI,
    show 1024 * ((t.val - 1) % 4 + 1) = 1024 * (t.val % 4) from by omega]

/-! ## The array -/

/-- The array the kernel leaves. -/
def Rinv (B : Cert.Spec.Mat) : S4096x1.Idx → EReal :=
  fun x => Cert.Spec.guard (Cert.Spec.rowSum B (x 0) + Cert.Spec.one)

theorem flushed1_eq (c : Dev nD) (t : Fin cfg0.N) (hf : (cfg0.win 1).flush t = true) :
    (dat0 V c).flushed 1 t = ((cfg0.win 1).blk t).view.read (Elt Ideal) (Rinv (V c main_v3)) := by
  have h3 : t.val % 4 = 3 := (flush0_1 t).mp hf
  show (cfg0.win 1).cut (grid0.coords t) ((dat0 V c).after 1 t) = _
  rw [after0_1]
  obtain ⟨-, -, e0, e1⟩ := idx0 t
  funext j
  obtain ⟨p, u, rfl⟩ : ∃ (p : Fin 256) (u : Fin 1), j = ix2 p u := ⟨j 0, j 1, eq_ix2 j⟩
  obtain rfl : u = 0 := Subsingleton.elim _ _
  show (outsAt0 V c t.val t.isLt : Vec Ideal S256x1 .f32) (ix2 p (0 : Fin 1)) = Rinv (V c main_v3) (((cfg0.win 1).blk t).view.emb (ix2 p (0 : Fin 1)))
  unfold Rinv
  refine fin_eq V c t h3 p _ ?_
  show win0_1.index t (0 : Fin 2) * 256 + 1 * p.val = _
  rw [e0]; omega

theorem mem_blk1 (t : Fin cfg0.N) (i : S4096x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v4).slice (win0_1.rect t)).set ↔ _
  rw [View.set_slice_whole, Rect.mem_set_unit]
  exact Iff.rfl

theorem rinv_arr (c : Dev nD) : (dat0 V c).arrAt 1 cfg0.N = Rinv (V c main_v3) :=
  (dat0 V c).arrAt_eq_of_cover 1 (Rinv (V c main_v3)) (flushed1_eq V c) fun i => by
    have hN : cfg0.N = 64 := N_0
    have h0 : (i 0).val < 4096 := (i 0).isLt
    have h1 : (i 1).val < 1 := (i 1).isLt
    refine ⟨⟨4 * ((i 0).val / 256) + 3, by rw [hN]; omega⟩, (flush0_1 _).mpr (by dsimp only; omega), ?_⟩
    rw [mem_blk1]
    obtain ⟨-, -, e0, e1⟩ := idx0 ⟨4 * ((i 0).val / 256) + 3, by rw [hN]; omega⟩
    intro a
    match a with
    | ⟨0, _⟩ => show win0_1.index _ (0 : Fin 2) * 256 ≤ (i 0).val ∧ (i 0).val < win0_1.index _ (0 : Fin 2) * 256 + 256; rw [e0]; dsimp only; omega
    | ⟨1, _⟩ => show win0_1.index _ (1 : Fin 2) * 1 ≤ (i 1).val ∧ (i 1).val < win0_1.index _ (1 : Fin 2) * 1 + 1; rw [e1]; omega

/-- The scale vector the reference's first kernel leaves. -/
theorem rinv_final (c : Dev nD) (i : Fin 4096) :
    (dat0 V c).arrAt 1 cfg0.N (ix2 i (0 : Fin 1)) = Cert.Spec.guard (Cert.Spec.rowSum (V c main_v3) i + Cert.Spec.one) :=
  congrFun (rinv_arr V c) (ix2 i (0 : Fin 1))

end Cert.ReferenceIdeal.Rinv

end
-- ==== Proof.RefValue.lean ====
/-
  The reference program's run, with its result named.

  From any memory with zero counters every weakly fair execution of the reference program terminates; in every final
  state the result array holds the specification `G` of the argument array — entry (i, j) is
  (g i · (½·(A[i,j] + A[j,i]) + [i = j])) · g j with g the guarded inverse square root of the degree — and the argument
  array is as launched. The run itself is the frame certificate's; the value is the last stage of its fold of buffer
  contents read back through the two regions and the host operations between them.
-/
import proofs.«107320_g2000603544188606_pallasbulk_177_7_alg».proof.Proof.RefRead
import proofs.«107320_g2000603544188606_pallasbulk_177_7_alg».proof.Proof.RefRun
import proofs.«107320_g2000603544188606_pallasbulk_177_7_alg».proof.Proof.RefRinv

set_option maxRecDepth 16384

noncomputable section

namespace Cert.ReferenceIdeal.RefValue

open Cert.ReferenceIdeal Cert.ReferenceIdeal.Gen Cert.ReferenceIdeal.GenP
open Idealize.ShloMosaic Idealize.ShloMosaic.TcCoe Idealize.ShloMosaic.ValueIdx Idealize.SL.Sem
open scoped BigOperators

/-- The run with the result named, from the value of the column of scales the first region leaves. -/
theorem run_of (m : (ℓ : Loc nD τ sig) → Buf (Elt Ideal) ℓ) (ρ : Dev nD → PrngReg)
    (hR : ∀ (c : Dev nD) (i : Fin 4096), (dat0 (V1 m ρ) c).arrAt 1 cfg0.N (ix2 i (0 : Fin 1))
      = Cert.Spec.guard (Cert.Spec.rowSum (V1 m ρ c main_v3) i + Cert.Spec.one)) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v6) = Cert.Spec.G (m ((c.tc : Thread nD τ).loc main_arg0))
      ∧ r.2.mem ((c.tc : Thread nD τ).loc main_arg0) = m ((c.tc : Thread nD τ).loc main_arg0)) :=
  (θ_run defs _ _).mono (fun r h c =>
    ⟨(h c _ (mem_uc main_v6 (by decide))).trans (W4_main_v6_of m ρ c (hR c)),
      (h c _ (mem_uc main_arg0 (by decide))).trans (W4_main_arg0 m ρ c)⟩) (run_all m ρ)

/-- THE RUN of the reference program at the extended reals: the result array ends at the specification of the argument
    array, which ends as launched. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v6) = Cert.Spec.G (m ((c.tc : Thread nD τ).loc main_arg0))
      ∧ r.2.mem ((c.tc : Thread nD τ).loc main_arg0) = m ((c.tc : Thread nD τ).loc main_arg0)) :=
  run_of m ρ fun c i => Cert.ReferenceIdeal.Rinv.rinv_final (V1 m ρ) c i

end Cert.ReferenceIdeal.RefValue

end
-- ==== Proof.lean ====
/-
  The kernel and its reference both compute the symmetrically normalised matrix
      `G A [i,j] = (g i · (½ (A[i,j] + A[j,i]) + [i = j])) · g j`,    `g i = d i ^ (-1/2)` where `d i > 0`, else `0`,
  with the degree `d i = Σ_k ½ (A[i,k] + A[k,i]) + 1` (`Cert.Spec`).

  The reference symmetrises `A` on the host, sums each row of `½ (A + Aᵀ)` block by block in a first kernel, adds one and
  takes the guarded inverse square root, and scales in a second kernel. The kernel never forms the symmetrised matrix:
  its first call sums the rows (in two halves) and the columns of `A` itself, and its second call, reading `A` through
  two windows (block (i,j) and block (j,i)), forms `½ (A[i,j] + A[j,i])`, the degree `½ ((R₀ i + R₁ i) + C i) + 1` and the
  scaled entry, adding the identity on diagonal blocks only. On the extended reals the two degrees agree because one
  half, a nonnegative finite factor, passes through a finite sum (`Cert.Spec.rowSum_sym`): no entry is asked to be
  finite, and the precondition is never opened. Off the diagonal blocks the identity's entry is zero, which adds nothing.

  The three frames and the two value runs are read off one run per program that names every buffer at the end
  (`Cert.Kernel.Hand.run_all`, `Cert.KernelIdeal.Hand.run_all`, the reference's run): each program is a list of
  segments — host stretches and pipelined calls — entered and left at a fold of buffer contents from the launch memory.
  The ideal pass rewrote nothing, so `preserves` is `True`.
-/
import proofs.«107320_g2000603544188606_pallasbulk_177_7_alg».proof.Defs
import proofs.«107320_g2000603544188606_pallasbulk_177_7_alg».proof.Proof.Gen.Kernel
import proofs.«107320_g2000603544188606_pallasbulk_177_7_alg».proof.Proof.Gen.KernelIdeal
import proofs.«107320_g2000603544188606_pallasbulk_177_7_alg».proof.Proof.Gen.ReferenceIdeal
import proofs.«107320_g2000603544188606_pallasbulk_177_7_alg».proof.Proof.Gen.Pre_finite_inputs
import proofs.«107320_g2000603544188606_pallasbulk_177_7_alg».proof.Proof.K.Run
import proofs.«107320_g2000603544188606_pallasbulk_177_7_alg».proof.Proof.KValue
import proofs.«107320_g2000603544188606_pallasbulk_177_7_alg».proof.Proof.RefFrame
import proofs.«107320_g2000603544188606_pallasbulk_177_7_alg».proof.Proof.RefValue
import Idealize.ShloMosaic.Adequacy
import Idealize.ShloMosaic.Init

noncomputable section

namespace Cert.Proof

open Idealize.ShloMosaic Idealize.SL.Sem

/-- The word-level kernel runs and leaves its argument as launched. -/
theorem frame_k : Cert.frame_Kernel (hKernel := Cert.Kernel.Gen.facts) (hPre_finite_inputs := Cert.Pre_finite_inputs.Gen.facts) :=
  fun m ρ _ => Cert.Kernel.Hand.frame m ρ

/-- So does the kernel read on the extended reals, -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- and the reference. -/
theorem frame_ri : Cert.frame_ReferenceIdeal (hReferenceIdeal := Cert.ReferenceIdeal.Gen.facts) (hPre_finite_inputs := Cert.Pre_finite_inputs.Gen.facts) :=
  fun m ρ _ => Cert.ReferenceIdeal.GenP.frame m ρ

/-- The ideal pass rewrote no operation. -/
theorem preserves : Cert.preserves_Kernel_KernelIdeal := trivial

/-- From memories agreeing on the argument both programs end with the result at the normalised matrix of that argument. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun r h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
